-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x168 : Shape := ⟨2, ![100000, 168]⟩
abbrev S100000x24 : Shape := ⟨2, ![100000, 24]⟩
abbrev S168x256 : Shape := ⟨2, ![168, 256]⟩
abbrev S1x256 : Shape := ⟨2, ![1, 256]⟩
abbrev S4 : Shape := ⟨1, ![4]⟩
abbrev S_ : Shape := ⟨0, ![]⟩

class Facts : Prop where
  bcast_S_S100000x168 : S_.BroadcastsInDim S100000x168 (![] : Fin 0 → Fin S100000x168.rank)
  reducesTo_S100000x168_S_d0_1 : S100000x168.ReducesTo [0, 1] S_
  h_S_ : 0 < S_.numel
  bcast_S_S100000x24 : S_.BroadcastsInDim S100000x24 (![] : Fin 0 → Fin S100000x24.rank)
  reducesTo_S100000x24_S_d0_1 : S100000x24.ReducesTo [0, 1] S_
  bcast_S_S168x256 : S_.BroadcastsInDim S168x256 (![] : Fin 0 → Fin S168x256.rank)
  reducesTo_S168x256_S_d0_1 : S168x256.ReducesTo [0, 1] S_
  bcast_S_S1x256 : S_.BroadcastsInDim S1x256 (![] : Fin 0 → Fin S1x256.rank)
  reducesTo_S1x256_S_d0_1 : S1x256.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x168 .f32) (main_arg1 : FVec F S100000x24 .f32) (main_arg2 : FVec F S168x256 .f32) (main_arg3 : FVec F S1x256 .f32) (main_arg4 : FVec F S4 .f32) : IVec S_ 1 :=
  let main_v0 : FVec F S100000x168 .f32 := Host.absf main_arg0
  let main_cst : FVec F S_ .f32 := constant S_ .f32 0x7F800000#32
  let main_v1 : FVec F S100000x168 .f32 := broadcastInDim S100000x168 ![] bcast_S_S100000x168 main_cst
  let main_v2 : IVec S100000x168 1 := cmpf .olt main_v0 main_v1
  let main_c : IVec S_ 1 := constantI S_ 1 1#1
  let main_v3 : IVec S_ 1 := (fun x v => Host.reduce IntOp.andi x v reducesTo_S100000x168_S_d0_1 h_S_) main_v2 main_c
  let main_v4 : FVec F S100000x24 .f32 := Host.absf main_arg1
  let main_cst_0 : FVec F S_ .f32 := constant S_ .f32 0x7F800000#32
  let main_v5 : FVec F S100000x24 .f32 := broadcastInDim S100000x24 ![] bcast_S_S100000x24 main_cst_0
  let main_v6 : IVec S100000x24 1 := cmpf .olt main_v4 main_v5
  let main_c_1 : IVec S_ 1 := constantI S_ 1 1#1
  let main_v7 : IVec S_ 1 := (fun x v => Host.reduce IntOp.andi x v reducesTo_S100000x24_S_d0_1 h_S_) main_v6 main_c_1
  let main_v8 : IVec S_ 1 := andi main_v3 main_v7
  let main_v9 : FVec F S168x256 .f32 := Host.absf main_arg2
  let main_cst_2 : FVec F S_ .f32 := constant S_ .f32 0x7F800000#32
  let main_v10 : FVec F S168x256 .f32 := broadcastInDim S168x256 ![] bcast_S_S168x256 main_cst_2
  let main_v11 : IVec S168x256 1 := cmpf .olt main_v9 main_v10
  let main_c_3 : IVec S_ 1 := constantI S_ 1 1#1
  let main_v12 : IVec S_ 1 := (fun x v => Host.reduce IntOp.andi x v reducesTo_S168x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_v13 main_v16
-- ==== Kernel.lean ====
abbrev S100000x168 : Shape := ⟨2, ![100000, 168]⟩
abbrev S100000x24 : Shape := ⟨2, ![100000, 24]⟩
abbrev S168x256 : Shape := ⟨2, ![168, 256]⟩
abbrev S1x256 : Shape := ⟨2, ![1, 256]⟩
abbrev S4 : Shape := ⟨1, ![4]⟩
abbrev S2x24x256 : Shape := ⟨3, ![2, 24, 256]⟩
abbrev S2x1x256 : Shape := ⟨3, ![2, 1, 256]⟩
abbrev S2x1x1 : Shape := ⟨3, ![2, 1, 1]⟩
abbrev S2000x168 : Shape := ⟨2, ![2000, 168]⟩
abbrev S2000x24 : Shape := ⟨2, ![2000, 24]⟩
abbrev S1x24x256 : Shape := ⟨3, ![1, 24, 256]⟩
abbrev S1x1x256 : Shape := ⟨3, ![1, 1, 256]⟩
abbrev S1x1x1 : Shape := ⟨3, ![1, 1, 1]⟩
abbrev S24x256 : Shape := ⟨2, ![24, 256]⟩
abbrev S1x1 : Shape := ⟨2, ![1, 1]⟩
abbrev S2000x256 : Shape := ⟨2, ![2000, 256]⟩
abbrev S256 : Shape := ⟨1, ![256]⟩
abbrev S2000 : Shape := ⟨1, ![2000]⟩
abbrev S2000x1 : Shape := ⟨2, ![2000, 1]⟩
abbrev S1 : Shape := ⟨1, ![1]⟩
abbrev S_ : Shape := ⟨0, ![]⟩
abbrev S256x1 : Shape := ⟨2, ![256, 1]⟩
abbrev S1x4 : Shape := ⟨2, ![1, 4]⟩
abbrev S256x4 : Shape := ⟨2, ![256, 4]⟩

abbrev nBuf : Space → Nat
  | .hbm => 29
  | .vmem => 15
  | .smem => 0
  | _ => 0

abbrev bufTy : (tb : Table) → Fin (tcTables nBuf tb) → BufTy
  | .hbm, ⟨0, _⟩ => ⟨S100000x168, .f32⟩
  | .hbm, ⟨1, _⟩ => ⟨S100000x24, .f32⟩
  | .hbm, ⟨2, _⟩ => ⟨S168x256, .f32⟩
  | .hbm, ⟨3, _⟩ => ⟨S1x256, .f32⟩
  | .hbm, ⟨4, _⟩ => ⟨S4, .f32⟩
  | .hbm, ⟨5, _⟩ => ⟨S2x24x256, .f32⟩
  | .hbm, ⟨6, _⟩ => ⟨S2x1x256, .f32⟩
  | .hbm, ⟨7, _⟩ => ⟨S2x1x1, .f32⟩
  | .hbm, ⟨8, _⟩ => ⟨S_, .f32⟩
  | .hbm, ⟨9, _⟩ => ⟨S24x256, .f32⟩
  | .hbm, ⟨10, _⟩ => ⟨S_, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S24x256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S256x4, .f32⟩
  | .hbm, ⟨27, _⟩ => ⟨S256x4, .f32⟩
  | .hbm, ⟨28, _⟩ => ⟨S256x4, .f32⟩
  | .local _ .vmem, ⟨0, _⟩ => ⟨S2000x168, .f32⟩
  | .local _ .vmem, ⟨1, _⟩ => ⟨S2000x168, .f32⟩
  | .local _ .vmem, ⟨2, _⟩ => ⟨S2000x24, .f32⟩
  | .local _ .vmem, ⟨3, _⟩ => ⟨S2000x24, .f32⟩
  | .local _ .vmem, ⟨4, _⟩ => ⟨S168x256, .f32⟩
  | .local _ .vmem, ⟨5, _⟩ => ⟨S1x256, .f32⟩
  | .local _ .vmem, ⟨6, _⟩ => ⟨S1x24x256, .f32⟩
  | .local _ .vmem, ⟨7, _⟩ => ⟨S1x24x256, .f32⟩
  | .local _ .vmem, ⟨8, _⟩ => ⟨S1x1x256, .f32⟩
  | .local _ .vmem, ⟨9, _⟩ => ⟨S1x1x256, .f32⟩
  | .local _ .vmem, ⟨10, _⟩ => ⟨S1x1x1, .f32⟩
  | .local _ .vmem, ⟨11, _⟩ => ⟨S1x1x1, .f32⟩
  | .local _ .vmem, ⟨12, _⟩ => ⟨S24x256, .f32⟩
  | .local _ .vmem, ⟨13, _⟩ => ⟨S1x256, .f32⟩
  | .local _ .vmem, ⟨14, _⟩ => ⟨S1x1, .f32⟩
  | _, _ => ⟨S100000x168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S168x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x24x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S24x256_S24x256_0_0 : ∀ a, (![0, 0] : Fin 2 → Nat) a + S24x256.size a ≤ S24x256.size a
  h_S24x256 : 0 < S24x256.numel
  shapeCasts_S24x256_S24x256 : S24x256.ShapeCasts S24x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x168_S2000x168_0_0 : ∀ a, (![0, 0] : Fin 2 → Nat) a + S2000x168.size a ≤ S2000x168.size a
  h_S2000x168 : 0 < S2000x168.numel
  inb_S2000x24_S2000x24_0_0 : ∀ a, (![0, 0] : Fin 2 → Nat) a + S2000x24.size a ≤ S2000x24.size a
  h_S2000x24 : 0 < S2000x24.numel
  inb_S168x256_S168x256_0_0 : ∀ a, (![0, 0] : Fin 2 → Nat) a + S168x256.size a ≤ S168x256.size a
  h_S168x256 : 0 < S168x256.numel
  bitsLt_bf16_f32 : FTy.bits .bf16 < FTy.bits .f32
  broadcasts_S1x256_S2000x256 : S1x256.Broadcasts S2000x256
  reduces_S2000x256_S256 : S2000x256.Reduces [0] S256
  shapeCasts_S256_S1x256 : S256.ShapeCasts S1x256
  reduces_S2000x24_S2000 : S2000x24.Reduces [1] S2000
  shapeCasts_S2000_S2000x1 : S2000.ShapeCasts S2000x1
  reduces_S2000x1_S1 : S2000x1.Reduces [0] S1
  shapeCasts_S1_S1x1 : S1.ShapeCasts S1x1
  inb_S1x24x256_S1x24x256_0_0_0 : ∀ a, (![0, 0, 0] : Fin 3 → Nat) a + S1x24x256.size a ≤ S1x24x256.size a
  h_S1x24x256 : 0 < S1x24x256.numel
  shapeCasts_S1x24x256_S24x256 : S1x24x256.ShapeCasts S24x256
  shapeCasts_S24x256_S1x24x256 : S24x256.ShapeCasts S1x24x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x24x256_S24x256_d0 : S2x24x256.ReducesTo [0] S24x256
  h_S_ : 0 < S_.numel
  reducesTo_S2x1x256_S1x256_d0 : S2x1x256.ReducesTo [0] S1x256
  shapeCasts_S1x256_S256 : S1x256.ShapeCasts S256
  reducesTo_S2x1x1_S_d0_1_2 : S2x1x1.ReducesTo [0, 1, 2] S_
  reducesTo_S24x256_S256_d0 : S24x256.ReducesTo [0] S256
  bcast_S256_S256x1_0 : S256.BroadcastsInDim S256x1 (![0] : Fin 1 → Fin S256x1.rank)
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S256x1_S256x4_0_1 : S256x1.BroadcastsInDim S256x4 (![0, 1] : Fin 2 → Fin S256x4.rank)
  bcast_S1x4_S256x4_0_1 : S1x4.BroadcastsInDim S256x4 (![0, 1] : Fin 2 → Fin S256x4.rank)
  dot_S2000x168_S168x256_S2000x256_1_0_0_1_n_n_wf : DotDims.WF S2000x168 S168x256 S2000x256 [1] [0] [0] [1] [] []
  dot_S2000x24_S2000x256_S24x256_0_0_1_1_n_n_wf : DotDims.WF S2000x24 S2000x256 S24x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x168.size a ≤ S100000x168.size a
  hwx0_0 : ∀ i : grid0.Coords, EltTy.bits .f32 = 32 ∨ (Rect.block (s := S100000x168) S2000x168.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x24.size a ≤ S100000x24.size a
  hwx0_1 : ∀ i : grid0.Coords, EltTy.bits .f32 = 32 ∨ (Rect.block (s := S100000x24) S2000x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S168x256.size a ≤ S168x256.size a
  hwx0_2 : ∀ i : grid0.Coords, EltTy.bits .f32 = 32 ∨ (Rect.block (s := S168x256) S168x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x24x256.size a ≤ S2x24x256.size a
  hwx0_4 : ∀ i : grid0.Coords, EltTy.bits .f32 = 32 ∨ (Rect.block (s := S2x24x256) S1x24x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S2x1x256.size a
  hwx0_5 : ∀ i : grid0.Coords, EltTy.bits .f32 = 32 ∨ (Rect.block (s := S2x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S2000x168_S168x256_S2000x256_1_0_0_1_n_n : DotDims S2000x168 S168x256 S2000x256 where
  lhsContracting := [1]
  rhsContracting := [0]
  lhsNonContracting := [0]
  rhsNonContracting := [1]
  lhsBatch := []
  rhsBatch := []
  wf := dot_S2000x168_S168x256_S2000x256_1_0_0_1_n_n_wf
def dot_S2000x24_S2000x256_S24x256_0_0_1_1_n_n : DotDims S2000x24 S2000x256 S24x256 where
  lhsContracting := [0]
  rhsContracting := [0]
  lhsNonContracting := [1]
  rhsNonContracting := [1]
  lhsBatch := []
  rhsBatch := []
  wf := dot_S2000x24_S2000x256_S24x256_0_0_1_1_n_n_wf

abbrev win0_0 : Pipeline.Window sig grid0 :=
  Pipeline.Window.ofSpec (Memref.whole main_arg0) S2000x168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S168x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x24x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100000x168 : Shape := ⟨2, ![100000, 168]⟩
abbrev S100000x24 : Shape := ⟨2, ![100000, 24]⟩
abbrev S168x256 : Shape := ⟨2, ![168, 256]⟩
abbrev S1x256 : Shape := ⟨2, ![1, 256]⟩
abbrev S4 : Shape := ⟨1, ![4]⟩
abbrev S100000x256 : Shape := ⟨2, ![100000, 256]⟩
abbrev S_ : Shape := ⟨0, ![]⟩
abbrev S24x256 : Shape := ⟨2, ![24, 256]⟩
abbrev S256 : Shape := ⟨1, ![256]⟩
abbrev S256x1 : Shape := ⟨2, ![256, 1]⟩
abbrev S1x4 : Shape := ⟨2, ![1, 4]⟩
abbrev S256x4 : Shape := ⟨2, ![256, 4]⟩

abbrev nBuf : Space → Nat
  | .hbm => 37
  | .vmem => 0
  | .smem => 0
  | _ => 0

abbrev bufTy : (tb : Table) → Fin (tcTables nBuf tb) → BufTy
  | .hbm, ⟨0, _⟩ => ⟨S100000x168, .f32⟩
  | .hbm, ⟨1, _⟩ => ⟨S100000x24, .f32⟩
  | .hbm, ⟨2, _⟩ => ⟨S168x256, .f32⟩
  | .hbm, ⟨3, _⟩ => ⟨S1x256, .f32⟩
  | .hbm, ⟨4, _⟩ => ⟨S4, .f32⟩
  | .hbm, ⟨5, _⟩ => ⟨S100000x256, .f32⟩
  | .hbm, ⟨6, _⟩ => ⟨S100000x256, .f32⟩
  | .hbm, ⟨7, _⟩ => ⟨S100000x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S_, .f32⟩
  | .hbm, ⟨14, _⟩ => ⟨S100000x256, .f32⟩
  | .hbm, ⟨15, _⟩ => ⟨S100000x256, .f32⟩
  | .hbm, ⟨16, _⟩ => ⟨S24x256, .f32⟩
  | .hbm, ⟨17, _⟩ => ⟨S100000x256, .f32⟩
  | .hbm, ⟨18, _⟩ => ⟨S_, .f32⟩
  | .hbm, ⟨19, _⟩ => ⟨S256, .f32⟩
  | .hbm, ⟨20, _⟩ => ⟨S24x256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S100000x24, .f32⟩
  | .hbm, ⟨25, _⟩ => ⟨S_, .f32⟩
  | .hbm, ⟨26, _⟩ => ⟨S_, .f32⟩
  | .hbm, ⟨27, _⟩ => ⟨S256x1, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S256x4, .f32⟩
  | .hbm, ⟨35, _⟩ => ⟨S256x4, .f32⟩
  | .hbm, ⟨36, _⟩ => ⟨S256x4, .f32⟩
  | _, _ => ⟨S100000x168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S256_d0 : S100000x256.ReducesTo [0] S256
  h_S_ : 0 < S_.numel
  reducesTo_S24x256_S256_d0 : S24x256.ReducesTo [0] S256
  reducesTo_S100000x24_S_d0_1 : S100000x24.ReducesTo [0, 1] S_
  bcast_S256_S256x1_0 : S256.BroadcastsInDim S256x1 (![0] : Fin 1 → Fin S256x1.rank)
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S256x1_S256x4_0_1 : S256x1.BroadcastsInDim S256x4 (![0, 1] : Fin 2 → Fin S256x4.rank)
  bcast_S1x4_S256x4_0_1 : S1x4.BroadcastsInDim S256x4 (![0, 1] : Fin 2 → Fin S256x4.rank)
  dot_S100000x168_S168x256_S100000x256_1_0_0_1_n_n_wf : DotDims.WF S100000x168 S168x256 S100000x256 [1] [0] [0] [1] [] []
  dot_S100000x24_S100000x256_S24x256_0_0_1_1_n_n_wf : DotDims.WF S100000x24 S100000x256 S24x256 [0] [0] [1] [1] [] []

variable [Facts₀]

def dot_S100000x168_S168x256_S100000x256_1_0_0_1_n_n : DotDims S100000x168 S168x256 S100000x256 where
  lhsContracting := [1]
  rhsContracting := [0]
  lhsNonContracting := [0]
  rhsNonContracting := [1]
  lhsBatch := []
  rhsBatch := []
  wf := dot_S100000x168_S168x256_S100000x256_1_0_0_1_n_n_wf
def dot_S100000x24_S100000x256_S24x256_0_0_1_1_n_n : DotDims S100000x24 S100000x256 S24x256 where
  lhsContracting := [0]
  rhsContracting := [0]
  lhsNonContracting := [1]
  rhsNonContracting := [1]
  lhsBatch := []
  rhsBatch := []
  wf := dot_S100000x24_S100000x256_S24x256_0_0_1_1_n_n_wf

class Facts : Prop extends Facts₀ where

variable [Facts]
-- ==== Proof.Pieces.lean ====
/-
  What one grid step leaves in the three running totals and in the three result blocks, as pure terms.

  The body keeps three totals across the 25 steps of a core's row: the 24 x 256 matrix of products of the
  error columns with the candidate activations, the 1 x 256 row of squared activations, and the 1 x 1 sum of
  squared errors. A step adds its tile's contribution to each total; the first step of a row adds it to a
  zero block it has just stored; the last step of a row also copies the three totals into the result blocks.
  Each lemma below says which term of the step's inputs (the four input tiles and, except at a first step,
  the totals the step before left) one of these six values is.
-/
import proofs.«136215_j64656437674378_1_alg».proof.Defs
import proofs.«136215_j64656437674378_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first step of a row: each total is the zero block plus the tile's contribution -/

theorem sA0 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : cond0_0 i) (hc1 : ¬cond0_1 i) (x0 : Vec F S2000x168 .f32) (x1 : Vec F S2000x24 .f32) (x2 : Vec F S168x256 .f32) (x3 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 = k0_pay11 x0 x1 x2 x3 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S24x256) hz2, View.readCov_unit_zero (S := S24x256) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sA1 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : cond0_0 i) (hc1 : ¬cond0_1 i) (x0 : Vec F S2000x168 .f32) (x1 : Vec F S2000x24 .f32) (x2 : Vec F S168x256 .f32) (x3 : Vec F S1x256 .f32) :
    sout0_A_1 c i arg2 harg2 arg3 harg3 arg4 harg4 arg5 harg5 arg6 harg6 arg7 harg7 arg8 harg8 arg9 harg9 arg10 harg10 arg11 harg11 hc0 hc1 x0 x1 x2 x3 = k0_pay1 (k0_pay12 x0 x2 x3 (k0_pay7 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sA2 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : cond0_0 i) (hc1 : ¬cond0_1 i) (x0 : Vec F S2000x168 .f32) (x1 : Vec F S2000x24 .f32) (x2 : Vec F S168x256 .f32) (x3 : Vec F S1x256 .f32) :
    sout0_A_2 c i arg2 harg2 arg3 harg3 arg4 harg4 arg5 harg5 arg6 harg6 arg7 harg7 arg8 harg8 arg9 harg9 arg10 harg10 arg11 harg11 hc0 hc1 x0 x1 x2 x3 = k0_pay2 (k0_pay10 x1) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

/-! ## A middle step: each total is the one before plus the tile's contribution -/

theorem sB0 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : ¬cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 = k0_pay11 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sB1 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : ¬cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay12 x0 x2 x3 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sB2 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : ¬cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay10 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

/-! ## A last step of a row: the totals as at a middle step, and the result blocks their copies -/

theorem sC0 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 = k0_pay11 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sC1 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay12 x0 x2 x3 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem sC2 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay10 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem oC4 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay11 x0 x1 x2 x3 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3, View.readCov_unit_zero (S := S24x256) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem oC5 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay4 (k0_pay1 (k0_pay12 x0 x2 x3 xs1)) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3, View.readCov_unit_zero (S := S1x256) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

theorem oC6 (c : Dev nD) (i : grid0.Coords) (arg2 : Memref sig .tc .vmem S2000x168 .f32) (harg2 : arg2.IsWhole) (arg3 : Memref sig .tc .vmem S2000x24 .f32) (harg3 : arg3.IsWhole) (arg4 : Memref sig .tc .vmem S168x256 .f32) (harg4 : arg4.IsWhole) (arg5 : Memref sig .tc .vmem S1x256 .f32) (harg5 : arg5.IsWhole) (arg6 : Memref sig .tc .vmem S1x24x256 .f32) (harg6 : arg6.IsWhole) (arg7 : Memref sig .tc .vmem S1x1x256 .f32) (harg7 : arg7.IsWhole) (arg8 : Memref sig .tc .vmem S1x1x1 .f32) (harg8 : arg8.IsWhole) (arg9 : Memref sig .tc .vmem S24x256 .f32) (harg9 : arg9.IsWhole) (arg10 : Memref sig .tc .vmem S1x256 .f32) (harg10 : arg10.IsWhole) (arg11 : Memref sig .tc .vmem S1x1 .f32) (harg11 : arg11.IsWhole) (hc0 : ¬cond0_0 i) (hc1 : cond0_1 i) (x0 : Vec F S2000x168 .f32) (x1 : Vec F S2000x24 .f32) (x2 : Vec F S168x256 .f32) (x3 : Vec F S1x256 .f32) (xs0 : Vec F S24x256 .f32) (xs1 : Vec F S1x256 .f32) (xs2 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay5 (k0_pay2 (k0_pay10 x1) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg9.read_unread, harg10.read_unread, harg11.read_unread, View.ld_unit_zero (S := S2000x168) hz2, View.ld_unit_zero (S := S2000x24) hz2, View.ld_unit_zero (S := S168x256) hz2, View.ld_unit_zero (S := S1x256) hz2, View.ld_unit_zero (S := S24x256) hz2, View.ld_unit_zero (S := S1x1) hz2]

end Cert.KernelIdeal.Pieces
end
-- ==== Proof.Tile.lean ====
/-
  One grid step's arithmetic, read entry by entry over the extended reals.

  A step sees a tile of 2000 rows: their inputs x (2000 x 168), their errors e (2000 x 24), and the whole
  weight matrix w (168 x 256) and bias row b (1 x 256). Its candidate activations are
  act r c = logistic (sum over k of x r k * w k c + b c); rounding the factors of a product to a shorter
  format is the identity on the extended reals, so the two matrix products are plain sums of products.
  The step adds to three running totals: at (d, c) the sum over the tile's rows of e r d * act r c, at c the
  sum over the rows of (act r c)^2, and the sum over the rows and the 24 components of (e r d)^2. The lemmas
  below read each of these, and the copies made at a row's last step, at an index given by its coordinates.
-/
import proofs.«136215_j64656437674378_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-- The candidate activation of row r and candidate c of one tile: the logistic function of the row's
    projection onto the candidate's weight column plus the candidate's bias. -/
def act (x : Vec Ideal S2000x168 .f32) (w : Vec Ideal S168x256 .f32) (b : Vec Ideal S1x256 .f32)
    (r : Fin 2000) (c : Fin 256) : EReal :=
  Ideal.logistic ((∑ k : Fin 168, x (ix2 r k) * w (ix2 k c)) + b (ix2 (0 : Fin 1) c))

/-! ## The two matrix products read at an index -/

theorem proj_l0 (i : S2000x256.Idx) (q : dot_S2000x168_S168x256_S2000x256_1_0_0_1_n_n.contr.Idx) : (dot_S2000x168_S168x256_S2000x256_1_0_0_1_n_n.lhsIdx i q 0).val = (i 0).val := by
  unfold DotDims.lhsIdx
  rw [dif_neg (show ¬(0 : Fin S2000x168.rank) ∈ dot_S2000x168_S168x256_S2000x256_1_0_0_1_n_n.lhsBatch by decide), dif_pos (show (0 : Fin S2000x168.rank) ∈ dot_S2000x168_S168x256_S2000x256_1_0_0_1_n_n.lhsNonContracting by decide)]
  rfl
theorem proj_l1 (i : S2000x256.Idx) (q : dot_S2000x168_S168x256_S2000x256_1_0_0_1_n_n.contr.Idx) : (dot_S2000x168_S168x256_S2000x256_1_0_0_1_n_n.lhsIdx i q 1).val = (q ⟨0, by decide⟩).val :=
  dot_S2000x168_S168x256_S2000x256_1_0_0_1_n_n.lhsIdx_val_of_single rfl i q
theorem proj_r0 (i : S2000x256.Idx) (q : dot_S2000x168_S168x256_S2000x256_1_0_0_1_n_n.contr.Idx) : (dot_S2000x168_S168x256_S2000x256_1_0_0_1_n_n.rhsIdx i q 0).val = (q ⟨0, by decide⟩).val :=
  dot_S2000x168_S168x256_S2000x256_1_0_0_1_n_n.rhsIdx_val_of_single rfl i q
theorem proj_r1 (i : S2000x256.Idx) (q : dot_S2000x168_S168x256_S2000x256_1_0_0_1_n_n.contr.Idx) : (dot_S2000x168_S168x256_S2000x256_1_0_0_1_n_n.rhsIdx i q 1).val = (i 1).val := by
  unfold DotDims.rhsIdx
  rw [dif_neg (show ¬(1 : Fin S168x256.rank) ∈ dot_S2000x168_S168x256_S2000x256_1_0_0_1_n_n.rhsBatch by decide), dif_pos (show (1 : Fin S168x256.rank) ∈ dot_S2000x168_S168x256_S2000x256_1_0_0_1_n_n.rhsNonContracting by decide)]
  rfl

/-- Rows times weights into a zero accumulator, at (r, c): the sum over the 168 input features. -/
theorem proj_apply (L : FVec Ideal S2000x168 .bf16) (R : FVec Ideal S168x256 .bf16) (r : Fin 2000) (c : Fin 256) :
    matmul dot_S2000x168_S168x256_S2000x256_1_0_0_1_n_n none L R (constant S2000x256 .f32 0x00000000#32) (ix2 r c)
      = ∑ k : Fin 168, L (ix2 r k) * R (ix2 k c) := by
  simp only [matmul]
  rw [Ideal.matmul_constant_zero_apply, ← Equiv.sum_comp (contrEquiv1 dot_S2000x168_S168x256_S2000x256_1_0_0_1_n_n 168 rfl rfl).symm]
  refine Finset.sum_congr rfl fun k _ => ?_
  have hk := contrEquiv1_symm_val dot_S2000x168_S168x256_S2000x256_1_0_0_1_n_n 168 rfl rfl k
  have el : dot_S2000x168_S168x256_S2000x256_1_0_0_1_n_n.lhsIdx (ix2 r c) ((contrEquiv1 dot_S2000x168_S168x256_S2000x256_1_0_0_1_n_n 168 rfl rfl).symm k) = ix2 r k := funext fun a => Fin.ext (by
    match a with
    | ⟨0, _⟩ => exact proj_l0 _ _
    | ⟨1, _⟩ => exact (proj_l1 _ _).trans hk)
  have er : dot_S2000x168_S168x256_S2000x256_1_0_0_1_n_n.rhsIdx (ix2 r c) ((contrEquiv1 dot_S2000x168_S168x256_S2000x256_1_0_0_1_n_n 168 rfl rfl).symm k) = ix2 k c := funext fun a => Fin.ext (by
    match a with
    | ⟨0, _⟩ => exact (proj_r0 _ _).trans hk
    | ⟨1, _⟩ => exact proj_r1 _ _)
  rw [el, er]

theorem corr_l0 (i : S24x256.Idx) (q : dot_S2000x24_S2000x256_S24x256_0_0_1_1_n_n.contr.Idx) : (dot_S2000x24_S2000x256_S24x256_0_0_1_1_n_n.lhsIdx i q 0).val = (q ⟨0, by decide⟩).val :=
  dot_S2000x24_S2000x256_S24x256_0_0_1_1_n_n.lhsIdx_val_of_single rfl i q
theorem corr_l1 (i : S24x256.Idx) (q : dot_S2000x24_S2000x256_S24x256_0_0_1_1_n_n.contr.Idx) : (dot_S2000x24_S2000x256_S24x256_0_0_1_1_n_n.lhsIdx i q 1).val = (i 0).val := by
  unfold DotDims.lhsIdx
  rw [dif_neg (show ¬(1 : Fin S2000x24.rank) ∈ dot_S2000x24_S2000x256_S24x256_0_0_1_1_n_n.lhsBatch by decide), dif_pos (show (1 : Fin S2000x24.rank) ∈ dot_S2000x24_S2000x256_S24x256_0_0_1_1_n_n.lhsNonContracting by decide)]
  rfl
theorem corr_r0 (i : S24x256.Idx) (q : dot_S2000x24_S2000x256_S24x256_0_0_1_1_n_n.contr.Idx) : (dot_S2000x24_S2000x256_S24x256_0_0_1_1_n_n.rhsIdx i q 0).val = (q ⟨0, by decide⟩).val :=
  dot_S2000x24_S2000x256_S24x256_0_0_1_1_n_n.rhsIdx_val_of_single rfl i q
theorem corr_r1 (i : S24x256.Idx) (q : dot_S2000x24_S2000x256_S24x256_0_0_1_1_n_n.contr.Idx) : (dot_S2000x24_S2000x256_S24x256_0_0_1_1_n_n.rhsIdx i q 1).val = (i 1).val := by
  unfold DotDims.rhsIdx
  rw [dif_neg (show ¬(1 : Fin S2000x256.rank) ∈ dot_S2000x24_S2000x256_S24x256_0_0_1_1_n_n.rhsBatch by decide), dif_pos (show (1 : Fin S2000x256.rank) ∈ dot_S2000x24_S2000x256_S24x256_0_0_1_1_n_n.rhsNonContracting by decide)]
  rfl

/-- Errors transposed times activations into a zero accumulator, at (d, c): the sum over the tile's 2000 rows. -/
theorem corr_apply (L : FVec Ideal S2000x24 .bf16) (R : FVec Ideal S2000x256 .bf16) (d : Fin 24) (c : Fin 256) :
    matmul dot_S2000x24_S2000x256_S24x256_0_0_1_1_n_n none L R (constant S24x256 .f32 0x00000000#32) (ix2 d c)
      = ∑ r : Fin 2000, L (ix2 r d) * R (ix2 r c) := by
  simp only [matmul]
  rw [Ideal.matmul_constant_zero_apply, ← Equiv.sum_comp (contrEquiv1 dot_S2000x24_S2000x256_S24x256_0_0_1_1_n_n 2000 rfl rfl).symm]
  refine Finset.sum_congr rfl fun k _ => ?_
  have hk := contrEquiv1_symm_val dot_S2000x24_S2000x256_S24x256_0_0_1_1_n_n 2000 rfl rfl k
  have el : dot_S2000x24_S2000x256_S24x256_0_0_1_1_n_n.lhsIdx (ix2 d c) ((contrEquiv1 dot_S2000x24_S2000x256_S24x256_0_0_1_1_n_n 2000 rfl rfl).symm k) = ix2 k d := funext fun a => Fin.ext (by
    match a with
    | ⟨0, _⟩ => exact (corr_l0 _ _).trans hk
    | ⟨1, _⟩ => exact corr_l1 _ _)
  have er : dot_S2000x24_S2000x256_S24x256_0_0_1_1_n_n.rhsIdx (ix2 d c) ((contrEquiv1 dot_S2000x24_S2000x256_S24x256_0_0_1_1_n_n 2000 rfl rfl).symm k) = ix2 k c := funext fun a => Fin.ext (by
    match a with
    | ⟨0, _⟩ => exact (corr_r0 _ _).trans hk
    | ⟨1, _⟩ => exact corr_r1 _ _)
  rw [el, er]

/-- The tile's activations. -/
theorem pay9_apply (x : Vec Ideal S2000x168 .f32) (w : Vec Ideal S168x256 .f32) (b : Vec Ideal S1x256 .f32)
    (r : Fin 2000) (c : Fin 256) : k0_pay9 (F := Ideal) x w b (ix2 r c) = act x w b r c := by
  unfold k0_pay9 act
  show Ideal.logistic (_ + _) = _
  rw [proj_apply, broadcastTo_1b_ab_apply]
  rfl

/-! ## The sums along one axis, and the layout changes, read at an index -/

/-- A sum down the 2000 rows of a tile, at candidate c. -/
theorem colsum_apply (v : FVec Ideal S2000x256 .f32) (c : Fin 256) :
    multiReduction .add [0] S256 v 0x00000000#32 reduces_S2000x256_S256 (.inl rfl) rfl (ix1 c) = ∑ r : Fin 2000, v (ix2 r c) := by
  refine (Ideal.multiReduction_add_single v _ reduces_S2000x256_S256 _ _ (ix1 c)).trans ?_
  exact Finset.sum_congr rfl fun r _ => congrArg v (funext fun a => Fin.ext (by match a with | ⟨0, _⟩ => rfl | ⟨1, _⟩ => rfl))

/-- A sum along the 24 error components of row r. -/
theorem rowsum_apply (v : FVec Ideal S2000x24 .f32) (r : Fin 2000) :
    multiReduction .add [1] S2000 v 0x00000000#32 reduces_S2000x24_S2000 (.inl rfl) rfl (ix1 r) = ∑ d : Fin 24, v (ix2 r d) := by
  refine (Ideal.multiReduction_add_single v _ reduces_S2000x24_S2000 _ _ (ix1 r)).trans ?_
  exact Finset.sum_congr rfl fun d _ => congrArg v (funext fun a => Fin.ext (by match a with | ⟨0, _⟩ => rfl | ⟨1, _⟩ => rfl))

/-- A sum down a column of 2000 entries. -/
theorem colsum1_apply (v : FVec Ideal S2000x1 .f32) (u : Fin 1) :
    multiReduction .add [0] S1 v 0x00000000#32 reduces_S2000x1_S1 (.inl rfl) rfl (ix1 u) = ∑ r : Fin 2000, v (ix2 r u) := by
  refine (Ideal.multiReduction_add_single v _ reduces_S2000x1_S1 _ _ (ix1 u)).trans ?_
  exact Finset.sum_congr rfl fun r _ => congrArg v (funext fun a => Fin.ext (by match a with | ⟨0, _⟩ => rfl | ⟨1, _⟩ => rfl))

/-- A vector of 2000 entries laid out as a column, at (r, 0), is its entry r. -/
theorem column_apply (v : FVec Ideal S2000 .f32) (r : Fin 2000) (u : Fin 1) :
    shapeCast S2000x1 v shapeCasts_S2000_S2000x1 (ix2 r u) = v (ix1 r) :=
  shapeCast_apply v _ _ _ (by
    have hu : u.val = 0 := by omega
    rw [Shape.rowMajor_val_two, Shape.rowMajor_val_one]
    show r.val = r.val * 1 + u.val
    omega)

/-! ## What a step adds to each running total -/

/-- The zero blocks a row's first step starts from. -/
theorem zero24_apply (j : S24x256.Idx) : k0_pay6 (F := Ideal) j = 0 := by
  unfold k0_pay6
  rw [shapeCast_self]
  exact Ideal.ofBits_zero_f32
theorem zero256_apply (j : S1x256.Idx) : k0_pay7 (F := Ideal) j = 0 := by
  unfold k0_pay7
  rw [shapeCast_self]
  exact Ideal.ofBits_zero_f32
theorem zero1_apply (j : S1x1.Idx) : k0_pay8 (F := Ideal) j = 0 := by
  unfold k0_pay8
  rw [shapeCast_self]
  exact Ideal.ofBits_zero_f32

/-- The error-activation products: the total before plus, at (d, c), the sum over the tile's rows of the
    error component d times the activation of candidate c. -/
theorem pay11_apply (x : Vec Ideal S2000x168 .f32) (e : Vec Ideal S2000x24 .f32) (w : Vec Ideal S168x256 .f32)
    (b : Vec Ideal S1x256 .f32) (acc : Vec Ideal S24x256 .f32) (d : Fin 24) (c : Fin 256) :
    k0_pay11 (F := Ideal) x e w b acc (ix2 d c) = acc (ix2 d c) + ∑ r : Fin 2000, e (ix2 r d) * act x w b r c := by
  unfold k0_pay11
  try dsimp only
  rw [shapeCast_self]
  show acc (ix2 d c) + _ = _
  rw [corr_apply]
  refine congrArg (acc (ix2 d c) + ·) (Finset.sum_congr rfl fun r _ => ?_)
  show e (ix2 r d) * k0_pay9 (F := Ideal) x w b (ix2 r c) = _
  rw [pay9_apply]

/-- The squared activations: the total before plus, at candidate c, the sum over the tile's rows of the
    activation squared. -/
theorem pay12_apply (x : Vec Ideal S2000x168 .f32) (w : Vec Ideal S168x256 .f32)
    (b : Vec Ideal S1x256 .f32) (acc : Vec Ideal S1x256 .f32) (u : Fin 1) (c : Fin 256) :
    k0_pay1 (F := Ideal) (k0_pay12 (F := Ideal) x w b acc) (ix2 u c) = acc (ix2 u c) + ∑ r : Fin 2000, act x w b r c * act x w b r c := by
  unfold k0_pay1 k0_pay12
  try dsimp only
  rw [shapeCast_self]
  show acc (ix2 u c) + _ = _
  rw [shapeCast_a_1a_apply, colsum_apply]
  refine congrArg (acc (ix2 u c) + ·) (Finset.sum_congr rfl fun r _ => ?_)
  show k0_pay9 (F := Ideal) x w b (ix2 r c) * k0_pay9 (F := Ideal) x w b (ix2 r c) = _
  rw [pay9_apply]

/-- The squared errors: the total before plus the sum over the tile's rows and the 24 components of the
    error squared. -/
theorem pay10_apply (e : Vec Ideal S2000x24 .f32) (acc : Vec Ideal S1x1 .f32) (u v : Fin 1) :
    k0_pay2 (F := Ideal) (k0_pay10 (F := Ideal) e) acc (ix2 u v) = acc (ix2 u v) + ∑ r : Fin 2000, ∑ d : Fin 24, e (ix2 r d) * e (ix2 r d) := by
  unfold k0_pay2 k0_pay10
  try dsimp only
  rw [shapeCast_self]
  show acc (ix2 u v) + _ = _
  rw [shapeCast_a_1a_apply, colsum1_apply]
  refine congrArg (acc (ix2 u v) + ·) (Finset.sum_congr rfl fun r _ => ?_)
  rw [column_apply, rowsum_apply]
  rfl

/-! ## The copies into the result blocks at a row's last step -/

theorem pay3_apply (v : Vec Ideal S24x256 .f32) (u : Fin 1) (d : Fin 24) (c : Fin 256) :
    k0_pay3 (F := Ideal) v (ix3 u d c) = v (ix2 d c) := by
  unfold k0_pay3
  exact shapeCast_ab_1ab_apply v _ u d c
theorem pay4_apply (v : Vec Ideal S1x256 .f32) (u u' : Fin 1) (c : Fin 256) :
    k0_pay4 (F := Ideal) v (ix3 u u' c) = v (ix2 u' c) := by
  unfold k0_pay4
  exact shapeCast_ab_1ab_apply v _ u u' c
theorem pay5_apply (v : Vec Ideal S1x1 .f32) (u u' u'' : Fin 1) :
    k0_pay5 (F := Ideal) v (ix3 u u' u'') = v (ix2 u' u'') := by
  unfold k0_pay5
  exact shapeCast_ab_1ab_apply v _ u u' u''

end Cert.KernelIdeal.Tile
end
-- ==== Proof.LibRowFold.lean ====
/-
  A running total that is reset at the start of every row of J consecutive steps.

  Let f n be what a total holds after step n, and M n what step n adds. If a step whose number is a
  multiple of J leaves 0 + M n, and every other step leaves what the step before left plus its own
  addend, then after step t the total is the sum of the addends of the steps of t's row up to t:
  the steps J * (t / J) + s for s = 0 .. t % J. This holds in any additive commutative monoid, so for
  extended reals with no finiteness; the totals may be families indexed by any type.
-/
import Idealize.ShloMosaic.Lib.Pipeline.Value

namespace Cert.RowFold

open scoped BigOperators
open Idealize.ShloMosaic

/-- The total after step t is the sum of its row's addends up to t. -/
theorem rowfold {ι β : Type} [AddCommMonoid β] {N : Nat} (J : Nat) (hJ : 0 < J)
    (f : (n : Nat) → n < N → ι → β) (M : Nat → ι → β)
    (h0 : ∀ (n : Nat) (h : n < N), n % J = 0 → ∀ p, f n h p = 0 + M n p)
    (hs : ∀ (n : Nat) (h : n + 1 < N), ¬(n + 1) % J = 0 →
      ∀ p, f (n + 1) h p = f n (Nat.lt_of_succ_lt h) p + M (n + 1) p)
    (t : Nat) (ht : t < N) (p : ι) :
    f t ht p = ∑ s ∈ Finset.range (t % J + 1), M (J * (t / J) + s) p := by
  have h' : J * (t / J) + t % J < N := by rw [Nat.div_add_mod]; exact ht
  rw [Pipeline.eq_accAt_of_mod f J (fun n _ p => 0 + M n p) (fun n _ acc p => acc p + M n p)
    (fun n h hn => funext (h0 n h hn)) (fun n h hn => funext (hs n h hn)) hJ t ht h']
  rw [Pipeline.accAt_add_apply (fun n _ p => 0 + M n p) (fun n _ acc p => acc p + M n p) (fun _ => 0) M
    (J * (t / J)) (t % J) (fun _ _ => rfl) (fun _ _ _ _ _ _ => rfl) (t % J) le_rfl h' p, zero_add]

end Cert.RowFold
-- ==== Proof.Accum.lean ====
/-
  The three running totals after every grid step.

  The grid's 50 steps are two rows of 25, one row per core. A row's first step resets the three totals and
  adds its tile's contribution; every later step of the row adds its own. Hence after step n each total is
  the sum of the contributions of the steps 25 * (n / 25) .. n of n's row: by induction along the row, never
  by listing the grid. A contribution is a sum over the step's 2000 rows: of an error component times a
  candidate's activation, of an activation squared, of the 24 squared error components.
-/
import proofs.«136215_j64656437674378_1_alg».proof.Proof.Pieces
import proofs.«136215_j64656437674378_1_alg».proof.Proof.Tile
import proofs.«136215_j64656437674378_1_alg».proof.Proof.LibRowFold

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-! ## The four input tiles of a step, and what step n adds to each total (nothing past the grid) -/

def tileX (c : Dev nD) (t : Fin cfg0.N) : Vec Ideal S2000x168 .f32 := iblk m c 0 t
def tileE (c : Dev nD) (t : Fin cfg0.N) : Vec Ideal S2000x24 .f32 := iblk m c 1 t
def tileW (c : Dev nD) (t : Fin cfg0.N) : Vec Ideal S168x256 .f32 := iblk m c 2 t
def tileB (c : Dev nD) (t : Fin cfg0.N) : Vec Ideal S1x256 .f32 := iblk m c 3 t

/-- To the error-activation products at (d, q): the sum over the step's 2000 rows. -/
def addEC (c : Dev nD) (n : Nat) (p : Fin 24 × Fin 256) : EReal :=
  if h : n < cfg0.N then
    ∑ r : Fin 2000, tileE m c ⟨n, h⟩ (ix2 r p.1)
      * Tile.act (tileX m c ⟨n, h⟩) (tileW m c ⟨n, h⟩) (tileB m c ⟨n, h⟩) r p.2
  else 0

/-- To the squared activations at candidate q. -/
def addCC (c : Dev nD) (n : Nat) (q : Fin 256) : EReal :=
  if h : n < cfg0.N then
    ∑ r : Fin 2000, Tile.act (tileX m c ⟨n, h⟩) (tileW m c ⟨n, h⟩) (tileB m c ⟨n, h⟩) r q
      * Tile.act (tileX m c ⟨n, h⟩) (tileW m c ⟨n, h⟩) (tileB m c ⟨n, h⟩) r q
  else 0

/-- To the squared errors. -/
def addEE (c : Dev nD) (n : Nat) (_ : Unit) : EReal :=
  if h : n < cfg0.N then
    ∑ r : Fin 2000, ∑ d : Fin 24, tileE m c ⟨n, h⟩ (ix2 r d) * tileE m c ⟨n, h⟩ (ix2 r d)
  else 0

/-! ## The three totals after each step -/

def totEC (c : Dev nD) (n : Nat) (h : n < cfg0.N) (p : Fin 24 × Fin 256) : EReal :=
  (outsAt0 m c n h).2.2.2.1 (ix2 p.1 p.2)
def totCC (c : Dev nD) (n : Nat) (h : n < cfg0.N) (q : Fin 256) : EReal :=
  (outsAt0 m c n h).2.2.2.2.1 (ix2 (0 : Fin 1) q)
def totEE (c : Dev nD) (n : Nat) (h : n < cfg0.N) (_ : Unit) : EReal :=
  (outsAt0 m c n h).2.2.2.2.2 (ix2 (0 : Fin 1) (0 : Fin 1))

/-! ### A first step of a row -/

theorem ec_first (c : Dev nD) (n : Nat) (h : n < cfg0.N) (h0 : n % 25 = 0) (p : Fin 24 × Fin 256) :
    totEC m c n h p = 0 + addEC m c n p := by
  have h1 : ¬(⟨n, h⟩ : Fin cfg0.N).val % 25 = 24 := by dsimp only; omega
  unfold totEC
  rw [outsAt0_A m c ⟨n, h⟩ h0 h1]
  dsimp only
  refine (congrFun (Pieces.sA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)) (ix2 p.1 p.2)).trans ?_
  refine (Tile.pay11_apply (iblk m c 0 ⟨n, h⟩) (iblk m c 1 ⟨n, h⟩) (iblk m c 2 ⟨n, h⟩) (iblk m c 3 ⟨n, h⟩) (k0_pay6 (F := Ideal)) p.1 p.2).trans ?_
  rw [Tile.zero24_apply]
  unfold addEC
  rw [dif_pos h]
  rfl

theorem cc_first (c : Dev nD) (n : Nat) (h : n < cfg0.N) (h0 : n % 25 = 0) (q : Fin 256) :
    totCC m c n h q = 0 + addCC m c n q := by
  have h1 : ¬(⟨n, h⟩ : Fin cfg0.N).val % 25 = 24 := by dsimp only; omega
  unfold totCC
  rw [outsAt0_A m c ⟨n, h⟩ h0 h1]
  dsimp only
  refine (congrFun (Pieces.sA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)) (ix2 (0 : Fin 1) q)).trans ?_
  refine (Tile.pay12_apply (iblk m c 0 ⟨n, h⟩) (iblk m c 2 ⟨n, h⟩) (iblk m c 3 ⟨n, h⟩) (k0_pay7 (F := Ideal)) (0 : Fin 1) q).trans ?_
  rw [Tile.zero256_apply]
  unfold addCC
  rw [dif_pos h]
  rfl

theorem ee_first (c : Dev nD) (n : Nat) (h : n < cfg0.N) (h0 : n % 25 = 0) (u : Unit) :
    totEE m c n h u = 0 + addEE m c n u := by
  have h1 : ¬(⟨n, h⟩ : Fin cfg0.N).val % 25 = 24 := by dsimp only; omega
  unfold totEE
  rw [outsAt0_A m c ⟨n, h⟩ h0 h1]
  dsimp only
  refine (congrFun (Pieces.sA2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)) (ix2 (0 : Fin 1) (0 : Fin 1))).trans ?_
  refine (Tile.pay10_apply (iblk m c 1 ⟨n, h⟩) (k0_pay8 (F := Ideal)) (0 : Fin 1) (0 : Fin 1)).trans ?_
  rw [Tile.zero1_apply]
  unfold addEE
  rw [dif_pos h]
  rfl

/-! ### Every other step -/

theorem ec_step (c : Dev nD) (n : Nat) (h : n + 1 < cfg0.N) (hn : ¬(n + 1) % 25 = 0) (p : Fin 24 × Fin 256) :
    totEC m c (n + 1) h p = totEC m c n (Nat.lt_of_succ_lt h) p + addEC m c (n + 1) p := by
  unfold totEC
  by_cases h1 : (n + 1) % 25 = 24
  · rw [outsAt0_C m c ⟨n + 1, h⟩ hn h1]
    dsimp only
    refine (congrFun (Pieces.sC0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 p.1 p.2)).trans ?_
    refine (Tile.pay11_apply (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 p.1 p.2).trans ?_
    unfold addEC
    rw [dif_pos h]
    rfl
  · rw [outsAt0_B m c ⟨n + 1, h⟩ hn h1]
    dsimp only
    refine (congrFun (Pieces.sB0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 p.1 p.2)).trans ?_
    refine (Tile.pay11_apply (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 p.1 p.2).trans ?_
    unfold addEC
    rw [dif_pos h]
    rfl

theorem cc_step (c : Dev nD) (n : Nat) (h : n + 1 < cfg0.N) (hn : ¬(n + 1) % 25 = 0) (q : Fin 256) :
    totCC m c (n + 1) h q = totCC m c n (Nat.lt_of_succ_lt h) q + addCC m c (n + 1) q := by
  unfold totCC
  by_cases h1 : (n + 1) % 25 = 24
  · rw [outsAt0_C m c ⟨n + 1, h⟩ hn h1]
    dsimp only
    refine (congrFun (Pieces.sC1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 (0 : Fin 1) q)).trans ?_
    refine (Tile.pay12_apply (iblk m c 0 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.2.1 (0 : Fin 1) q).trans ?_
    unfold addCC
    rw [dif_pos h]
    rfl
  · rw [outsAt0_B m c ⟨n + 1, h⟩ hn h1]
    dsimp only
    refine (congrFun (Pieces.sB1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 (0 : Fin 1) q)).trans ?_
    refine (Tile.pay12_apply (iblk m c 0 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.2.1 (0 : Fin 1) q).trans ?_
    unfold addCC
    rw [dif_pos h]
    rfl

theorem ee_step (c : Dev nD) (n : Nat) (h : n + 1 < cfg0.N) (hn : ¬(n + 1) % 25 = 0) (u : Unit) :
    totEE m c (n + 1) h u = totEE m c n (Nat.lt_of_succ_lt h) u + addEE m c (n + 1) u := by
  unfold totEE
  by_cases h1 : (n + 1) % 25 = 24
  · rw [outsAt0_C m c ⟨n + 1, h⟩ hn h1]
    dsimp only
    refine (congrFun (Pieces.sC2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 (0 : Fin 1) (0 : Fin 1))).trans ?_
    refine (Tile.pay10_apply (iblk m c 1 (⟨n + 1, h⟩ : Fin cfg0.N)) (outsAt0 m c n (Nat.lt_of_succ_lt h)).2.2.2.2.2 (0 : Fin 1) (0 : Fin 1)).trans ?_
    unfold addEE
    rw [dif_pos h]
    rfl
  · rw [outsAt0_B m c ⟨n + 1, h⟩ hn h1]
    dsimp only
    refine (congrFun (Pieces.sB2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) scM0_1 (Memref.isWhole_whole _) scM0_2 (Memref.isWhole_whole _) (fun hh => hn ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.2.1 (outsAt0 m c n (Nat.lt_of_succ_lt h)).2.2.2.2.1 (outsAt0 m c n (Nat.lt_of_succ_lt h)).2.2.2.2.2) (ix2 (0 : Fin 1) (0 : Fin 1))).trans ?_
    refine (Tile.pay10_apply (iblk m c 1 (⟨n + 1, h⟩ : Fin cfg0.N)) (outsAt0 m c n (Nat.lt_of_succ_lt h)).2.2.2.2.2 (0 : Fin 1) (0 : Fin 1)).trans ?_
    unfold addEE
    rw [dif_pos h]
    rfl

/-! ### So each total is the sum of its row's addends so far -/

theorem totEC_eq (c : Dev nD) (n : Nat) (h : n < cfg0.N) (p : Fin 24 × Fin 256) :
    totEC m c n h p = ∑ s ∈ Finset.range (n % 25 + 1), addEC m c (25 * (n / 25) + s) p :=
  Cert.RowFold.rowfold 25 (by decide) (totEC m c) (addEC m c) (fun n h h0 p => ec_first m c n h h0 p)
    (fun n h hn p => ec_step m c n h hn p) n h p

theorem totCC_eq (c : Dev nD) (n : Nat) (h : n < cfg0.N) (q : Fin 256) :
    totCC m c n h q = ∑ s ∈ Finset.range (n % 25 + 1), addCC m c (25 * (n / 25) + s) q :=
  Cert.RowFold.rowfold 25 (by decide) (totCC m c) (addCC m c) (fun n h h0 p => cc_first m c n h h0 p)
    (fun n h hn p => cc_step m c n h hn p) n h q

theorem totEE_eq (c : Dev nD) (n : Nat) (h : n < cfg0.N) (u : Unit) :
    totEE m c n h u = ∑ s ∈ Finset.range (n % 25 + 1), addEE m c (25 * (n / 25) + s) u :=
  Cert.RowFold.rowfold 25 (by decide) (totEE m c) (addEE m c) (fun n h h0 p => ee_first m c n h h0 p)
    (fun n h hn p => ee_step m c n h hn p) n h u

end Cert.KernelIdeal.Accum
end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.Spec.lean ====
/-
  The three sums both programs compute, as functions of the argument arrays over the extended reals.

  With x the inputs (100000 x 168), e the errors (100000 x 24), w the candidate weights (168 x 256) and
  b the candidate biases (1 x 256):
    sig n q = logistic (sum over k of x n k * w k q + b q)      the activation of candidate q at row n,
    EC d q  = sum over n of e n d * sig n q                      the error-activation products,
    CC q    = sum over n of (sig n q)^2                          the squared activations,
    EE      = sum over n and d of (e n d)^2                      the squared errors.
  A sum over the 100000 rows is the sum over the two cores, the 25 steps of a core's row and the 2000 rows
  of a step's tile, row ((k * 25 + s) * 2000 + r) being row r of step s of core k: addition of extended
  reals is commutative and associative, so the regrouping needs no finiteness.
-/
import Idealize.ShloMosaic.PureOps.Ideal
import Idealize.ShloMosaic.Lib.ValueIdx
import proofs.«136215_j64656437674378_1_alg».proof.Proof.LibBlockSumN

noncomputable section

open Idealize.ShloMosaic Idealize.ShloMosaic.ValueIdx
open scoped BigOperators

namespace Cert.Spec

abbrev SX : Shape := ⟨2, ![100000, 168]⟩
abbrev SE : Shape := ⟨2, ![100000, 24]⟩
abbrev SW : Shape := ⟨2, ![168, 256]⟩
abbrev SB : Shape := ⟨2, ![1, 256]⟩

/-- The activation of candidate q at row n. -/
def sig (x : Vec Ideal SX .f32) (w : Vec Ideal SW .f32) (b : Vec Ideal SB .f32) (n : Fin 100000) (q : Fin 256) : EReal :=
  Ideal.logistic ((∑ k : Fin 168, x (ix2 n k) * w (ix2 k q)) + b (ix2 (0 : Fin 1) q))

/-- The error-activation products. -/
def EC (x : Vec Ideal SX .f32) (e : Vec Ideal SE .f32) (w : Vec Ideal SW .f32) (b : Vec Ideal SB .f32)
    (d : Fin 24) (q : Fin 256) : EReal :=
  ∑ n : Fin 100000, e (ix2 n d) * sig x w b n q

/-- The squared activations. -/
def CC (x : Vec Ideal SX .f32) (w : Vec Ideal SW .f32) (b : Vec Ideal SB .f32) (q : Fin 256) : EReal :=
  ∑ n : Fin 100000, sig x w b n q * sig x w b n q

/-- The squared errors. -/
def EE (e : Vec Ideal SE .f32) : EReal :=
  ∑ n : Fin 100000, ∑ d : Fin 24, e (ix2 n d) * e (ix2 n d)

/-- Row r of step s of core k. -/
def row (k : Fin 2) (s : Fin 25) (r : Fin 2000) : Fin 100000 :=
  ⟨(k.val * 25 + s.val) * 2000 + r.val, by have := k.isLt; have := s.isLt; have := r.isLt; omega⟩

/-- A sum over the 100000 rows, taken core by core, step by step, tile row by tile row. -/
theorem sum_rows {α : Type} [AddCommMonoid α] (f : Fin 100000 → α) :
    ∑ n : Fin 100000, f n = ∑ k : Fin 2, ∑ s : Fin 25, ∑ r : Fin 2000, f (row k s r) := by
  rw [Cert.BlockSumN.sum_blocks_of_eq 50 2000 (by norm_num) f,
    Cert.BlockSumN.sum_blocks_of_eq 2 25 (by norm_num) (fun T : Fin 50 => ∑ r : Fin 2000, f ⟨T.val * 2000 + r.val, _⟩)]
  rfl

/-- The three sums, core by core: what each core's row of steps contributes. -/
def ECpart (x : Vec Ideal SX .f32) (e : Vec Ideal SE .f32) (w : Vec Ideal SW .f32) (b : Vec Ideal SB .f32)
    (k : Fin 2) (d : Fin 24) (q : Fin 256) : EReal :=
  ∑ s : Fin 25, ∑ r : Fin 2000, e (ix2 (row k s r) d) * sig x w b (row k s r) q
def CCpart (x : Vec Ideal SX .f32) (w : Vec Ideal SW .f32) (b : Vec Ideal SB .f32) (k : Fin 2) (q : Fin 256) : EReal :=
  ∑ s : Fin 25, ∑ r : Fin 2000, sig x w b (row k s r) q * sig x w b (row k s r) q
def EEpart (e : Vec Ideal SE .f32) (k : Fin 2) : EReal :=
  ∑ s : Fin 25, ∑ r : Fin 2000, ∑ d : Fin 24, e (ix2 (row k s r) d) * e (ix2 (row k s r) d)

theorem EC_parts (x : Vec Ideal SX .f32) (e : Vec Ideal SE .f32) (w : Vec Ideal SW .f32) (b : Vec Ideal SB .f32)
    (d : Fin 24) (q : Fin 256) : EC x e w b d q = ∑ k : Fin 2, ECpart x e w b k d q :=
  sum_rows _
theorem CC_parts (x : Vec Ideal SX .f32) (w : Vec Ideal SW .f32) (b : Vec Ideal SB .f32) (q : Fin 256) :
    CC x w b q = ∑ k : Fin 2, CCpart x w b k q :=
  sum_rows _
theorem EE_parts (e : Vec Ideal SE .f32) : EE e = ∑ k : Fin 2, EEpart e k :=
  sum_rows _

end Cert.Spec
end
-- ==== Proof.Blocks.lean ====
/-
  From a step's tiles to the whole arrays, and what each core's row of steps leaves.

  Step t of the grid reads rows 2000 t .. 2000 t + 1999 of the inputs and of the errors, and all of the
  weights and biases; so its contributions are sums over those rows of the whole arrays. Core k runs the
  steps 25 k .. 25 k + 24, and at the last of them each total is the core's share of the corresponding sum:
  the sum over the rows (k * 25 + s) * 2000 + r. That step copies the three totals into the core's result
  blocks.
-/
import proofs.«136215_j64656437674378_1_alg».proof.Proof.Accum
import proofs.«136215_j64656437674378_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-! ## The argument arrays, typed -/

def argX (c : Dev nD) : Vec Ideal Cert.Spec.SX .f32 := m ((c : Thread nD τ).loc main_arg0)
def argE (c : Dev nD) : Vec Ideal Cert.Spec.SE .f32 := m ((c : Thread nD τ).loc main_arg1)
def argW (c : Dev nD) : Vec Ideal Cert.Spec.SW .f32 := m ((c : Thread nD τ).loc main_arg2)
def argB (c : Dev nD) : Vec Ideal Cert.Spec.SB .f32 := m ((c : Thread nD τ).loc main_arg3)

/-! ## Where a step's tiles sit in the argument arrays -/

/-- Step t reads rows 2000 t .. 2000 t + 1999 of the inputs and of the errors, and the whole weight matrix
    and bias row: the block indices, decided over the grid. -/
theorem in_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The result blocks of step t are those of its core, t / 25. -/
theorem out_idx : ∀ t : Fin cfg0.N, win0_4.index t (0 : Fin 3) = t.val / 25 ∧ win0_4.index t (1 : Fin 3) = 0 ∧ win0_4.index t (2 : Fin 3) = 0
    ∧ win0_5.index t (0 : Fin 3) = t.val / 25 ∧ win0_5.index t (1 : Fin 3) = 0 ∧ win0_5.index t (2 : Fin 3) = 0
    ∧ win0_6.index t (0 : Fin 3) = t.val / 25 ∧ win0_6.index t (1 : Fin 3) = 0 ∧ win0_6.index t (2 : Fin 3) = 0 :=
  (by decide +kernel : ∀ t : Fin grid0.N, _)

/-- Row r of step n's tile is row 2000 n + r of the whole array. -/
def rowOf (n : Nat) (hn : n < 50) (r : Fin 2000) : Fin 100000 := ⟨n * 2000 + r.val, by have := r.isLt; omega⟩

theorem lt50 (t : Fin cfg0.N) : t.val < 50 := lt_of_lt_of_eq t.isLt (show cfg0.N = 50 from N_0)

theorem tileX_apply (c : Dev nD) (t : Fin cfg0.N) (r : Fin 2000) (k : Fin 168) :
    Accum.tileX m c t (ix2 r k) = argX m c (ix2 (rowOf t.val (lt50 t) r) k) := by
  obtain ⟨e0, e1, -⟩ := in_idx t
  unfold Accum.tileX iblk argX
  rw [View.read_apply]
  show V m c main_arg0 _ = _
  rw [V_main_arg0]
  refine congrArg _ (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 168 + 1 * k.val = k.val; rw [e1]; omega

theorem tileE_apply (c : Dev nD) (t : Fin cfg0.N) (r : Fin 2000) (d : Fin 24) :
    Accum.tileE m c t (ix2 r d) = argE m c (ix2 (rowOf t.val (lt50 t) r) d) := by
  obtain ⟨-, -, e0, e1, -⟩ := in_idx t
  unfold Accum.tileE iblk argE
  rw [View.read_apply]
  show V m c main_arg1 _ = _
  rw [V_main_arg1]
  refine congrArg _ (funext fun a => Fin.ext ?_)
  match a with
  | ⟨0, _⟩ => show win0_1.index t (0 : Fin 2) * 2000 + 1 * r.val = t.val * 2000 + r.val; rw [e0]; omega
  | ⟨1, _⟩ => show win0_1.index t (1 : Fin 2) * 24 + 1 * d.val = d.val; rw [e1]; omega

theorem tileW_apply (c : Dev nD) (t : Fin cfg0.N) (k : Fin 168) (q : Fin 256) :
    Accum.tileW m c t (ix2 k q) = argW m c (ix2 k q) := by
  obtain ⟨-, -, -, -, e0, e1, -⟩ := in_idx t
  unfold Accum.tileW iblk argW
  rw [View.read_apply]
  show V m c main_arg2 _ = _
  rw [V_main_arg2]
  refine congrArg _ (funext fun a => Fin.ext ?_)
  match a with
  | ⟨0, _⟩ => show win0_2.index t (0 : Fin 2) * 168 + 1 * k.val = k.val; rw [e0]; omega
  | ⟨1, _⟩ => show win0_2.index t (1 : Fin 2) * 256 + 1 * q.val = q.val; rw [e1]; omega

theorem tileB_apply (c : Dev nD) (t : Fin cfg0.N) (u : Fin 1) (q : Fin 256) :
    Accum.tileB m c t (ix2 u q) = argB m c (ix2 u q) := by
  obtain ⟨-, -, -, -, -, -, e0, e1⟩ := in_idx t
  unfold Accum.tileB iblk argB
  rw [View.read_apply]
  show V m c main_arg3 _ = _
  rw [V_main_arg3]
  refine congrArg _ (funext fun a => Fin.ext ?_)
  match a with
  | ⟨0, _⟩ => show win0_3.index t (0 : Fin 2) * 1 + 1 * u.val = u.val; rw [e0]; omega
  | ⟨1, _⟩ => show win0_3.index t (1 : Fin 2) * 256 + 1 * q.val = q.val; rw [e1]; omega

/-! ## The contributions over the whole arrays -/

theorem act_eq (c : Dev nD) (t : Fin cfg0.N) (r : Fin 2000) (q : Fin 256) :
    Tile.act (Accum.tileX m c t) (Accum.tileW m c t) (Accum.tileB m c t) r q
      = Cert.Spec.sig (argX m c) (argW m c) (argB m c) (rowOf t.val (lt50 t) r) q := by
  unfold Tile.act Cert.Spec.sig
  rw [tileB_apply]
  refine congrArg (fun z => Ideal.logistic (z + _)) (Finset.sum_congr rfl fun k _ => ?_)
  rw [tileX_apply, tileW_apply]

/-! ## A step's contributions over the whole arrays -/

theorem n_lt (k : Fin 2) (s : Fin 25) : 25 * k.val + s.val < cfg0.N := by
  rw [show cfg0.N = 50 from N_0]; have := k.isLt; have := s.isLt; omega

theorem rowOf_eq (k : Fin 2) (s : Fin 25) (r : Fin 2000) (h : 25 * k.val + s.val < 50) :
    rowOf (25 * k.val + s.val) h r = Cert.Spec.row k s r :=
  Fin.ext (by show (25 * k.val + s.val) * 2000 + r.val = (k.val * 25 + s.val) * 2000 + r.val; omega)

theorem addEC_row (c : Dev nD) (k : Fin 2) (s : Fin 25) (d : Fin 24) (q : Fin 256) :
    Accum.addEC m c (25 * k.val + s.val) (d, q)
      = ∑ r : Fin 2000, (argE m c) (ix2 (Cert.Spec.row k s r) d) * Cert.Spec.sig (argX m c) (argW m c) (argB m c) (Cert.Spec.row k s r) q := by
  unfold Accum.addEC
  rw [dif_pos (n_lt k s)]
  refine Finset.sum_congr rfl fun r _ => ?_
  show Accum.tileE m c ⟨25 * k.val + s.val, n_lt k s⟩ (ix2 r d) * Tile.act (Accum.tileX m c ⟨25 * k.val + s.val, n_lt k s⟩) (Accum.tileW m c ⟨25 * k.val + s.val, n_lt k s⟩) (Accum.tileB m c ⟨25 * k.val + s.val, n_lt k s⟩) r q = _
  rw [tileE_apply, act_eq]
  show (argE m c) (ix2 (rowOf (25 * k.val + s.val) _ r) d) * Cert.Spec.sig (argX m c) (argW m c) (argB m c) (rowOf (25 * k.val + s.val) _ r) q = _
  rw [rowOf_eq]

theorem addCC_row (c : Dev nD) (k : Fin 2) (s : Fin 25) (q : Fin 256) :
    Accum.addCC m c (25 * k.val + s.val) q
      = ∑ r : Fin 2000, Cert.Spec.sig (argX m c) (argW m c) (argB m c) (Cert.Spec.row k s r) q * Cert.Spec.sig (argX m c) (argW m c) (argB m c) (Cert.Spec.row k s r) q := by
  unfold Accum.addCC
  rw [dif_pos (n_lt k s)]
  refine Finset.sum_congr rfl fun r _ => ?_
  rw [act_eq]
  show Cert.Spec.sig (argX m c) (argW m c) (argB m c) (rowOf (25 * k.val + s.val) _ r) q * Cert.Spec.sig (argX m c) (argW m c) (argB m c) (rowOf (25 * k.val + s.val) _ r) q = _
  rw [rowOf_eq]

theorem addEE_row (c : Dev nD) (k : Fin 2) (s : Fin 25) (u : Unit) :
    Accum.addEE m c (25 * k.val + s.val) u
      = ∑ r : Fin 2000, ∑ d : Fin 24, (argE m c) (ix2 (Cert.Spec.row k s r) d) * (argE m c) (ix2 (Cert.Spec.row k s r) d) := by
  unfold Accum.addEE
  rw [dif_pos (n_lt k s)]
  refine Finset.sum_congr rfl fun r _ => Finset.sum_congr rfl fun d _ => ?_
  rw [tileE_apply]
  show (argE m c) (ix2 (rowOf (25 * k.val + s.val) _ r) d) * (argE m c) (ix2 (rowOf (25 * k.val + s.val) _ r) d) = _
  rw [rowOf_eq]

/-! ## The totals at a row's last step are the core's share of each sum -/

theorem core_lt (t : Fin cfg0.N) : t.val / 25 < 2 := by have := lt50 t; omega

theorem totEC_last (c : Dev nD) (t : Fin cfg0.N) (h24 : t.val % 25 = 24) (d : Fin 24) (q : Fin 256) :
    Accum.totEC m c t.val t.isLt (d, q) = Cert.Spec.ECpart (argX m c) (argE m c) (argW m c) (argB m c) ⟨t.val / 25, core_lt t⟩ d q := by
  have h25 : t.val % 25 + 1 = 25 := by omega
  rw [Accum.totEC_eq, h25, Finset.sum_range]
  unfold Cert.Spec.ECpart
  exact Finset.sum_congr rfl fun s _ => addEC_row m c ⟨t.val / 25, core_lt t⟩ s d q

theorem totCC_last (c : Dev nD) (t : Fin cfg0.N) (h24 : t.val % 25 = 24) (q : Fin 256) :
    Accum.totCC m c t.val t.isLt q = Cert.Spec.CCpart (argX m c) (argW m c) (argB m c) ⟨t.val / 25, core_lt t⟩ q := by
  have h25 : t.val % 25 + 1 = 25 := by omega
  rw [Accum.totCC_eq, h25, Finset.sum_range]
  unfold Cert.Spec.CCpart
  exact Finset.sum_congr rfl fun s _ => addCC_row m c ⟨t.val / 25, core_lt t⟩ s q

theorem totEE_last (c : Dev nD) (t : Fin cfg0.N) (h24 : t.val % 25 = 24) (u : Unit) :
    Accum.totEE m c t.val t.isLt u = Cert.Spec.EEpart (argE m c) ⟨t.val / 25, core_lt t⟩ := by
  have h25 : t.val % 25 + 1 = 25 := by omega
  rw [Accum.totEE_eq, h25, Finset.sum_range]
  unfold Cert.Spec.EEpart
  exact Finset.sum_congr rfl fun s _ => addEE_row m c ⟨t.val / 25, core_lt t⟩ s u

/-! ## The result blocks at a row's last step copy the totals -/

theorem out4_apply (c : Dev nD) (t : Fin cfg0.N) (h24 : t.val % 25 = 24) (u : Fin 1) (d : Fin 24) (q : Fin 256) :
    (outsAt0 m c t.val t.isLt).1 (ix3 u d q) = Accum.totEC m c t.val t.isLt (d, q) := by
  have h0 : ¬t.val % 25 = 0 := by omega
  unfold Accum.totEC
  rw [outsAt0_C m c t h0 h24]
  dsimp only
  refine (congrFun (Pieces.oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix3 u d q)).trans ?_
  refine (Tile.pay3_apply _ u d q).trans ?_
  exact (congrFun (Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix2 d q)).symm

theorem out5_apply (c : Dev nD) (t : Fin cfg0.N) (h24 : t.val % 25 = 24) (u u' : Fin 1) (q : Fin 256) :
    (outsAt0 m c t.val t.isLt).2.1 (ix3 u u' q) = Accum.totCC m c t.val t.isLt q := by
  have h0 : ¬t.val % 25 = 0 := by omega
  have hu : u' = 0 := Subsingleton.elim _ _
  subst hu
  unfold Accum.totCC
  rw [outsAt0_C m c t h0 h24]
  dsimp only
  refine (congrFun (Pieces.oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix3 u 0 q)).trans ?_
  refine (Tile.pay4_apply _ u 0 q).trans ?_
  exact (congrFun (Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix2 0 q)).symm

theorem out6_apply (c : Dev nD) (t : Fin cfg0.N) (h24 : t.val % 25 = 24) (u u' u'' : Fin 1) :
    (outsAt0 m c t.val t.isLt).2.2.1 (ix3 u u' u'') = Accum.totEE m c t.val t.isLt () := by
  have h0 : ¬t.val % 25 = 0 := by omega
  have hu : u' = 0 := Subsingleton.elim _ _
  have hu' : u'' = 0 := Subsingleton.elim _ _
  subst hu hu'
  unfold Accum.totEE
  rw [outsAt0_C m c t h0 h24]
  dsimp only
  refine (congrFun (Pieces.oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix3 u 0 0)).trans ?_
  refine (Tile.pay5_apply _ u 0 0).trans ?_
  exact (congrFun (Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun hh => h0 ((hcond0_0 t).mp hh)) ((hcond0_1 t).mpr h24) (iblk m c 0 t) (iblk m c 1 t) (iblk m c 2 t) (iblk m c 3 t) _ _ _) (ix2 0 0)).symm

end Cert.KernelIdeal.Blocks
end
-- ==== Proof.LibSumIdx3.lean ====
/-
  Two general facts about finite sums.

  * A sum over every index of a rank-3 array is the triple sum over its three coordinates (the rank-3 companion of
    the library's `sum_idx2`): `idxEquiv3`, `sum_idx3`.
  * The inclusion of the reals in the extended reals carries a finite sum of reals to the sum of their images:
    `coe_sum`.  (It is additive and sends 0 to 0; the statement follows by induction on the finite set.)
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The inclusion of the reals in the extended reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibSumIdx3

end
-- ==== Proof.Run.lean ====
/-
  The kernel's run, read: the three result arrays after the region, and the scores the host forms from them.

  Each result array has one block per core, written back once, at the last step of the core's row, with the
  core's share of the corresponding sum; the two blocks cover the array. The host then adds the two cores'
  blocks (from zero) and applies the closing operations: the sum over the 24 error components of the squared
  products divided by the squared activations, minus (1 - r) times the squared errors.
-/
import proofs.«136215_j64656437674378_1_alg».proof.Proof.Blocks
import proofs.«136215_j64656437674378_1_alg».proof.Proof.LibSumIdx3
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks

variable (m : (ℓ : Loc nD τ sig) → Buf (Elt Ideal) ℓ) (ρ : Dev nD → PrngReg)

/-! ## The three result arrays after the region -/

/-- Block k of each result array is core k's share of the corresponding sum. -/
def G4 (c : Dev nD) : Vec Ideal S2x24x256 .f32 := fun j =>
  Cert.Spec.ECpart (argX m c) (argE m c) (argW m c) (argB m c) (j 0) (j 1) (j 2)
def G5 (c : Dev nD) : Vec Ideal S2x1x256 .f32 := fun j =>
  Cert.Spec.CCpart (argX m c) (argW m c) (argB m c) (j 0) (j 2)
def G6 (c : Dev nD) : Vec Ideal S2x1x1 .f32 := fun j =>
  Cert.Spec.EEpart (argE m c) (j 0)

/-- What a row's last step writes back is its core's block of G4. -/
theorem flushed4_eq (c : Dev nD) (t : Fin cfg0.N) (hf : (cfg0.win 4).flush t = true) :
    (dats m 0 c).flushed 4 t = ((cfg0.win 4).blk t).view.read (Elt Ideal) (G4 m c) := by
  have h24 : t.val % 25 = 24 := (flush0_4 t).mp hf
  obtain ⟨e0, e1, e2, -⟩ := out_idx t
  show (cfg0.win 4).cut (grid0.coords t) ((dats m 0 c).after 4 t) = _
  rw [after0_4]
  funext y
  obtain ⟨u, d, q, rfl⟩ : ∃ (u : Fin 1) (d : Fin 24) (q : Fin 256), y = ix3 u d q := ⟨y 0, y 1, y 2, eq_ix3 y⟩
  show (outsAt0 m c t.val t.isLt).1 (ix3 u d q) = G4 m c (((cfg0.win 4).blk t).view.emb (ix3 u d q))
  rw [out4_apply m c t h24, totEC_last m c t h24]
  have hemb : ((cfg0.win 4).blk t).view.emb (ix3 u d q) = ix3 (⟨t.val / 25, core_lt t⟩ : Fin 2) d q := by
    funext a; apply Fin.ext
    match a with
    | ⟨0, _⟩ => show win0_4.index t (0 : Fin 3) * 1 + 1 * u.val = t.val / 25; rw [e0]; omega
    | ⟨1, _⟩ => show win0_4.index t (1 : Fin 3) * 24 + 1 * d.val = d.val; rw [e1]; omega
    | ⟨2, _⟩ => show win0_4.index t (2 : Fin 3) * 256 + 1 * q.val = q.val; rw [e2]; omega
  rw [hemb]
  rfl

theorem flushed5_eq (c : Dev nD) (t : Fin cfg0.N) (hf : (cfg0.win 5).flush t = true) :
    (dats m 0 c).flushed 5 t = ((cfg0.win 5).blk t).view.read (Elt Ideal) (G5 m c) := by
  have h24 : t.val % 25 = 24 := (flush0_5 t).mp hf
  obtain ⟨-, -, -, e0, e1, e2, -⟩ := out_idx t
  show (cfg0.win 5).cut (grid0.coords t) ((dats m 0 c).after 5 t) = _
  rw [after0_5]
  funext y
  obtain ⟨u, u', q, rfl⟩ : ∃ (u : Fin 1) (u' : Fin 1) (q : Fin 256), y = ix3 u u' q := ⟨y 0, y 1, y 2, eq_ix3 y⟩
  show (outsAt0 m c t.val t.isLt).2.1 (ix3 u u' q) = G5 m c (((cfg0.win 5).blk t).view.emb (ix3 u u' q))
  rw [out5_apply m c t h24, totCC_last m c t h24]
  have hemb : ((cfg0.win 5).blk t).view.emb (ix3 u u' q) = ix3 (⟨t.val / 25, core_lt t⟩ : Fin 2) (0 : Fin 1) q := by
    funext a; apply Fin.ext
    match a with
    | ⟨0, _⟩ => show win0_5.index t (0 : Fin 3) * 1 + 1 * u.val = t.val / 25; rw [e0]; omega
    | ⟨1, _⟩ => show win0_5.index t (1 : Fin 3) * 1 + 1 * u'.val = 0; rw [e1]; omega
    | ⟨2, _⟩ => show win0_5.index t (2 : Fin 3) * 256 + 1 * q.val = q.val; rw [e2]; omega
  rw [hemb]
  rfl

theorem flushed6_eq (c : Dev nD) (t : Fin cfg0.N) (hf : (cfg0.win 6).flush t = true) :
    (dats m 0 c).flushed 6 t = ((cfg0.win 6).blk t).view.read (Elt Ideal) (G6 m c) := by
  have h24 : t.val % 25 = 24 := (flush0_6 t).mp hf
  obtain ⟨-, -, -, -, -, -, e0, e1, e2⟩ := out_idx t
  show (cfg0.win 6).cut (grid0.coords t) ((dats m 0 c).after 6 t) = _
  rw [after0_6]
  funext y
  obtain ⟨u, u', u'', rfl⟩ : ∃ (u : Fin 1) (u' : Fin 1) (u'' : Fin 1), y = ix3 u u' u'' := ⟨y 0, y 1, y 2, eq_ix3 y⟩
  show (outsAt0 m c t.val t.isLt).2.2.1 (ix3 u u' u'') = G6 m c (((cfg0.win 6).blk t).view.emb (ix3 u u' u''))
  rw [out6_apply m c t h24, totEE_last m c t h24]
  have hemb : ((cfg0.win 6).blk t).view.emb (ix3 u u' u'') = ix3 (⟨t.val / 25, core_lt t⟩ : Fin 2) (0 : Fin 1) (0 : Fin 1) := by
    funext a; apply Fin.ext
    match a with
    | ⟨0, _⟩ => show win0_6.index t (0 : Fin 3) * 1 + 1 * u.val = t.val / 25; rw [e0]; omega
    | ⟨1, _⟩ => show win0_6.index t (1 : Fin 3) * 1 + 1 * u'.val = 0; rw [e1]; omega
    | ⟨2, _⟩ => show win0_6.index t (2 : Fin 3) * 1 + 1 * u''.val = 0; rw [e2]; omega
  rw [hemb]
  rfl

/-! ## The last steps of the two rows cover the result arrays -/

/-- The last step of core k's row. -/
def lastOf (k : Nat) (hk : k < 2) : Fin cfg0.N := ⟨25 * k + 24, by rw [show cfg0.N = 50 from N_0]; omega⟩

theorem lastOf_mod (k : Nat) (hk : k < 2) : (lastOf k hk).val % 25 = 24 := by
  show (25 * k + 24) % 25 = 24; omega
theorem lastOf_div (k : Nat) (hk : k < 2) : (lastOf k hk).val / 25 = k := by
  show (25 * k + 24) / 25 = k; omega

theorem mem_blk4 (t : Fin cfg0.N) (i : S2x24x256.Idx) :
    i ∈ ((cfg0.win 4).blk t).view.set ↔ ∀ a : Fin 3, win0_4.index t a * S1x24x256.size a ≤ (i a).val ∧ (i a).val < win0_4.index t a * S1x24x256.size a + S1x24x256.size a := by
  show i ∈ ((View.whole main_v0_0).slice (win0_4.rect t)).set ↔ _
  rw [View.set_slice_whole, Rect.mem_set_unit]
  exact Iff.rfl
theorem mem_blk5 (t : Fin cfg0.N) (i : S2x1x256.Idx) :
    i ∈ ((cfg0.win 5).blk t).view.set ↔ ∀ a : Fin 3, win0_5.index t a * S1x1x256.size a ≤ (i a).val ∧ (i a).val < win0_5.index t a * S1x1x256.size a + S1x1x256.size a := by
  show i ∈ ((View.whole main_v0_1).slice (win0_5.rect t)).set ↔ _
  rw [View.set_slice_whole, Rect.mem_set_unit]
  exact Iff.rfl
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v0_2).slice (win0_6.rect t)).set ↔ _
  rw [View.set_slice_whole, Rect.mem_set_unit]
  exact Iff.rfl

theorem cover4 (i : S2x24x256.Idx) : ∃ t : Fin cfg0.N, (cfg0.win 4).flush t = true ∧ i ∈ ((cfg0.win 4).blk t).view.set := by
  have hi0 : (i 0).val < 2 := (i 0).isLt
  have hi1 : (i 1).val < 24 := (i 1).isLt
  have hi2 : (i 2).val < 256 := (i 2).isLt
  refine ⟨lastOf (i 0).val hi0, (flush0_4 _).mpr (lastOf_mod _ hi0), ?_⟩
  obtain ⟨e0, e1, e2, -⟩ := out_idx (lastOf (i 0).val hi0)
  rw [lastOf_div] at e0
  rw [mem_blk4]
  intro a
  match a with
  | ⟨0, _⟩ => show win0_4.index (lastOf (i 0).val hi0) (0 : Fin 3) * 1 ≤ (i 0).val ∧ (i 0).val < win0_4.index (lastOf (i 0).val hi0) (0 : Fin 3) * 1 + 1; rw [e0]; omega
  | ⟨1, _⟩ => show win0_4.index (lastOf (i 0).val hi0) (1 : Fin 3) * 24 ≤ (i 1).val ∧ (i 1).val < win0_4.index (lastOf (i 0).val hi0) (1 : Fin 3) * 24 + 24; rw [e1]; omega
  | ⟨2, _⟩ => show win0_4.index (lastOf (i 0).val hi0) (2 : Fin 3) * 256 ≤ (i 2).val ∧ (i 2).val < win0_4.index (lastOf (i 0).val hi0) (2 : Fin 3) * 256 + 256; rw [e2]; omega

theorem cover5 (i : S2x1x256.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 256 := (i 2).isLt
  refine ⟨lastOf (i 0).val hi0, (flush0_5 _).mpr (lastOf_mod _ hi0), ?_⟩
  obtain ⟨-, -, -, e0, e1, e2, -⟩ := out_idx (lastOf (i 0).val hi0)
  rw [lastOf_div] at e0
  rw [mem_blk5]
  intro a
  match a with
  | ⟨0, _⟩ => show win0_5.index (lastOf (i 0).val hi0) (0 : Fin 3) * 1 ≤ (i 0).val ∧ (i 0).val < win0_5.index (lastOf (i 0).val hi0) (0 : Fin 3) * 1 + 1; rw [e0]; omega
  | ⟨1, _⟩ => show win0_5.index (lastOf (i 0).val hi0) (1 : Fin 3) * 1 ≤ (i 1).val ∧ (i 1).val < win0_5.index (lastOf (i 0).val hi0) (1 : Fin 3) * 1 + 1; rw [e1]; omega
  | ⟨2, _⟩ => show win0_5.index (lastOf (i 0).val hi0) (2 : Fin 3) * 256 ≤ (i 2).val ∧ (i 2).val < win0_5.index (lastOf (i 0).val hi0) (2 : Fin 3) * 256 + 256; rw [e2]; omega

theorem cover6 (i : S2x1x1.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1 := (i 2).isLt
  refine ⟨lastOf (i 0).val hi0, (flush0_6 _).mpr (lastOf_mod _ hi0), ?_⟩
  obtain ⟨-, -, -, -, -, -, e0, e1, e2⟩ := out_idx (lastOf (i 0).val hi0)
  rw [lastOf_div] at e0
  rw [mem_blk6]
  intro a
  match a with
  | ⟨0, _⟩ => show win0_6.index (lastOf (i 0).val hi0) (0 : Fin 3) * 1 ≤ (i 0).val ∧ (i 0).val < win0_6.index (lastOf (i 0).val hi0) (0 : Fin 3) * 1 + 1; rw [e0]; omega
  | ⟨1, _⟩ => show win0_6.index (lastOf (i 0).val hi0) (1 : Fin 3) * 1 ≤ (i 1).val ∧ (i 1).val < win0_6.index (lastOf (i 0).val hi0) (1 : Fin 3) * 1 + 1; rw [e1]; omega
  | ⟨2, _⟩ => show win0_6.index (lastOf (i 0).val hi0) (2 : Fin 3) * 1 ≤ (i 2).val ∧ (i 2).val < win0_6.index (lastOf (i 0).val hi0) (2 : Fin 3) * 1 + 1; rw [e2]; omega

/-- So the three result arrays end holding G4, G5, G6. -/
theorem final4 (c : Dev nD) : (dats m 0 c).arrAt 4 cfg0.N = G4 m c :=
  (dats m 0 c).arrAt_eq_of_cover 4 (G4 m c) (flushed4_eq m c) cover4
theorem final5 (c : Dev nD) : (dats m 0 c).arrAt 5 cfg0.N = G5 m c :=
  (dats m 0 c).arrAt_eq_of_cover 5 (G5 m c) (flushed5_eq m c) cover5
theorem final6 (c : Dev nD) : (dats m 0 c).arrAt 6 cfg0.N = G6 m c :=
  (dats m 0 c).arrAt_eq_of_cover 6 (G6 m c) (flushed6_eq m c) cover6

/-! ## The host operations after the region -/

/-- The scores from the three sums: the operations both programs end with. -/
def tail (ec : Vec Ideal S24x256 .f32) (cc : Vec Ideal S256 .f32) (ee : Vec Ideal S_ .f32) (r : Vec Ideal S4 .f32) :
    Vec Ideal S256x4 .f32 :=
  subf (broadcastInDim S256x4 ![0, 1] bcast_S256x1_S256x4_0_1 (broadcastInDim S256x1 ![0] bcast_S256_S256x1_0
      (Host.divf (Host.reduceAdd (mulf ec ec) (constant (F := Ideal) S_ .f32 0x00000000#32) reducesTo_S24x256_S256_d0 h_S_) cc)))
    (broadcastInDim S256x4 ![0, 1] bcast_S1x4_S256x4_0_1 (mulf (broadcastInDim S1x4 ![1] bcast_S4_S1x4_1
      (subf (broadcastInDim S4 ![] bcast_S_S4 (constant (F := Ideal) S_ .f32 0x3F800000#32)) r)) (broadcastInDim S1x4 ![] bcast_S_S1x4 ee)))

/-- The three sums as the host forms them from the two cores' blocks. -/
def ecK (c : Dev nD) : Vec Ideal S24x256 .f32 :=
  Host.reduceAdd (G4 m c) (constant (F := Ideal) S_ .f32 0x00000000#32) reducesTo_S2x24x256_S24x256_d0 h_S_
def ccK (c : Dev nD) : Vec Ideal S256 .f32 :=
  shapeCast S256 (Host.reduceAdd (G5 m c) (constant (F := Ideal) S_ .f32 0x00000000#32) reducesTo_S2x1x256_S1x256_d0 h_S_) shapeCasts_S1x256_S256
def eeK (c : Dev nD) : Vec Ideal S_ .f32 :=
  Host.reduceAdd (G6 m c) (constant (F := Ideal) S_ .f32 0x00000000#32) reducesTo_S2x1x1_S_d0_1_2 h_S_

/-- What the program's result holds: the scores of those three sums and the argument r. -/
def result (c : Dev nD) : Vec Ideal S256x4 .f32 :=
  tail (ecK m c) (ccK m c) (eeK m c) (m ((c : Thread nD τ).loc main_arg4))

theorem tail_eq (c : Dev nD) :
    Pipeline.afterTail₀ cfgs (dats m) 0 (V0 m) [hostOps1] c main_v16 = result m c := by
  have h4 : Pipeline.withArrays (cfgs 0).spec c (V0 m c) (fun w => (dats m 0 c).arrAt w (cfgs 0).N) (Proc.devRef .tc main_v0_0) = G4 m c :=
    (Pipeline.withArrays_arr spec0 launch0.win.arr_inj c _ _ 4).trans (final4 m c)
  have h5 : Pipeline.withArrays (cfgs 0).spec c (V0 m c) (fun w => (dats m 0 c).arrAt w (cfgs 0).N) (Proc.devRef .tc main_v0_1) = G5 m c :=
    (Pipeline.withArrays_arr spec0 launch0.win.arr_inj c _ _ 5).trans (final5 m c)
  have h6 : Pipeline.withArrays (cfgs 0).spec c (V0 m c) (fun w => (dats m 0 c).arrAt w (cfgs 0).N) (Proc.devRef .tc main_v0_2) = G6 m c :=
    (Pipeline.withArrays_arr spec0 launch0.win.arr_inj c _ _ 6).trans (final6 m c)
  have hr : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  show StableHlo.after hostOps1 _ (Proc.devRef .tc main_v16) = _
  after_results
  rw [h4, h5, h6, hr]
  rfl

/-- The run: every execution ends with the result at the scores and the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Run
end
-- ==== Proof.RefSide.lean ====
/-
  The reference's three sums are the specification's.

  The reference computes the activations as 1 / (1 + exp (-(x w + b))), which is the logistic function on
  every extended real; its contraction of the errors with the activations over the 100000 rows, its sum
  of the squared activations down the rows, and its sum of the squared errors over both axes are the three
  sums EC, CC and EE, the last two behind the zero the host's sums start from.
-/
import proofs.«136215_j64656437674378_1_alg».proof.Defs
import proofs.«136215_j64656437674378_1_alg».proof.Proof.Gen.ReferenceIdeal.Read
import proofs.«136215_j64656437674378_1_alg».proof.Proof.Spec
import Idealize.ShloMosaic.Lib.IdealHost

noncomputable section

open Idealize.ShloMosaic Idealize.ShloMosaic.ValueIdx

namespace Cert.ReferenceIdeal.RefValue

open Cert.ReferenceIdeal Cert.ReferenceIdeal.Read

/-- The activations. -/
theorem v8_apply (x : Vec Ideal S100000x168 .f32) (w : Vec Ideal S168x256 .f32) (b : Vec Ideal S1x256 .f32)
    (n : Fin 100000) (q : Fin 256) : val_main_v8 (F := Ideal) x w b (ix2 n q) = Cert.Spec.sig x w b n q := by
  have e1 : ∀ k, lidx_main_v0 (ix2 n q) k = ix2 n k := fun k => funext fun a => by
    match a with | ⟨0, _⟩ => rfl | ⟨1, _⟩ => rfl
  have e2 : ∀ k, ridx_main_v0 (ix2 n q) k = ix2 k q := fun k => funext fun a => by
    match a with | ⟨0, _⟩ => rfl | ⟨1, _⟩ => rfl
  have e3 : idx_main_v1 (ix2 n q) = ix2 (0 : Fin 1) q := funext fun a => by
    match a with | ⟨0, _⟩ => rfl | ⟨1, _⟩ => rfl
  rw [val_main_v8_apply, val_main_v7_apply, val_main_cst_0_apply, val_main_v6_apply, val_main_v5_apply,
    val_main_cst_apply, val_main_v4_apply, val_main_v3_apply, val_main_v2_apply, val_main_v0_apply, val_main_v1_apply]
  simp only [e1, e2, e3, Ideal.hostDivf_def, Ideal.addf_def, Ideal.hostUnary_exp_def, Ideal.hostNegf_def,
    Ideal.negf_def, Ideal.ofBits_def, Ideal.ofBits_one_f32]
  rfl

/-- The error-activation products. -/
theorem v9_apply (x : Vec Ideal S100000x168 .f32) (e : Vec Ideal S100000x24 .f32) (w : Vec Ideal S168x256 .f32)
    (b : Vec Ideal S1x256 .f32) (d : Fin 24) (q : Fin 256) :
    val_main_v9 (F := Ideal) x e w b (ix2 d q) = Cert.Spec.EC x e w b d q := by
  have e1 : ∀ k, lidx_main_v9 (ix2 d q) k = ix2 k d := fun k => funext fun a => by
    match a with | ⟨0, _⟩ => rfl | ⟨1, _⟩ => rfl
  have e2 : ∀ k, ridx_main_v9 (ix2 d q) k = ix2 k q := fun k => funext fun a => by
    match a with | ⟨0, _⟩ => rfl | ⟨1, _⟩ => rfl
  rw [val_main_v9_apply]
  unfold Cert.Spec.EC
  refine Finset.sum_congr rfl fun k _ => ?_
  rw [e1, e2, v8_apply]

/-- The squared activations, behind the sum's initial zero. -/
theorem v11_apply (x : Vec Ideal S100000x168 .f32) (w : Vec Ideal S168x256 .f32) (b : Vec Ideal S1x256 .f32)
    (q : Fin 256) : val_main_v11 (F := Ideal) x w b (ix1 q) = 0 + Cert.Spec.CC x w b q := by
  have e1 : ∀ k, idx_main_v11 (ix1 q) k = ix2 k q := fun k => funext fun a => by
    match a with | ⟨0, _⟩ => rfl | ⟨1, _⟩ => rfl
  rw [val_main_v11_apply, val_main_cst_1_apply, Ideal.ofBits_def, Ideal.ofBits_zero_f32]
  unfold Cert.Spec.CC
  refine congrArg (0 + ·) (Finset.sum_congr rfl fun k _ => ?_)
  rw [e1, val_main_v10_apply, v8_apply]
  rfl

/-- The squared errors, behind the sum's initial zero. -/
theorem v16_apply (e : Vec Ideal S100000x24 .f32) (j : S_.Idx) :
    val_main_v16 (F := Ideal) e j = 0 + Cert.Spec.EE e := by
  rw [val_main_v16_apply, val_main_cst_3_apply, Ideal.ofBits_def, Ideal.ofBits_zero_f32, sum_idx2]
  rfl

end Cert.ReferenceIdeal.RefValue
end
-- ==== Proof.Bridge.lean ====
/-
  The kernel's three sums are the reference's, so the two results are one array.

  The host's sum over the two cores of a result array, from zero, is zero plus the two cores' shares, which
  is the whole sum over the 100000 rows; the reference's contraction and its two host sums are the same three
  sums (behind a zero for the two host sums). Zero is neutral for the addition of extended reals. The closing
  operations are the same in both programs and are applied to equal arguments.
-/
import proofs.«136215_j64656437674378_1_alg».proof.Proof.Run
import proofs.«136215_j64656437674378_1_alg».proof.Proof.RefSide

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Blocks

variable (m : (ℓ : Loc nD τ sig) → Buf (Elt Ideal) ℓ)

theorem ecK_apply (c : Dev nD) (d : Fin 24) (q : Fin 256) :
    Run.ecK m c (ix2 d q) = Cert.Spec.EC (argX m c) (argE m c) (argW m c) (argB m c) d q := by
  unfold Run.ecK
  simp only [Host.reduceAdd, Ideal.hostReduceAdd_def]
  rw [Ideal.hostReduceAdd_single reducesTo_S2x24x256_S24x256_d0 (by decide), Cert.Spec.EC_parts]
  show Ideal.ofBits .f32 0x00000000#32 + _ = _
  rw [Ideal.ofBits_zero_f32, zero_add]
  exact Finset.sum_congr rfl fun k _ => rfl

theorem ccK_apply (c : Dev nD) (q : Fin 256) :
    Run.ccK m c (ix1 q) = 0 + Cert.Spec.CC (argX m c) (argW m c) (argB m c) q := by
  unfold Run.ccK
  rw [shapeCast_1a_a_apply]
  simp only [Host.reduceAdd, Ideal.hostReduceAdd_def]
  rw [Ideal.hostReduceAdd_single reducesTo_S2x1x256_S1x256_d0 (by decide), Cert.Spec.CC_parts]
  show Ideal.ofBits .f32 0x00000000#32 + _ = _
  rw [Ideal.ofBits_zero_f32]
  exact congrArg (0 + ·) (Finset.sum_congr rfl fun k _ => rfl)

theorem eeK_apply (c : Dev nD) (j : S_.Idx) :
    Run.eeK m c j = 0 + Cert.Spec.EE (argE m c) := by
  unfold Run.eeK
  simp only [Host.reduceAdd, Ideal.hostReduceAdd_def]
  rw [Ideal.hostReduceAdd_total reducesTo_S2x1x1_S_d0_1_2 (fun b => b.elim0), Cert.LibSumIdx3.sum_idx3, Cert.Spec.EE_parts]
  show Ideal.ofBits .f32 0x00000000#32 + _ = _
  rw [Ideal.ofBits_zero_f32]
  refine congrArg (0 + ·) (Finset.sum_congr rfl fun k _ => ?_)
  rw [Fintype.sum_unique, Fintype.sum_unique]
  rfl

open Cert.ReferenceIdeal.Read in
theorem ecK_eq (c : Dev nD) :
    Run.ecK m c = val_main_v9 (F := Ideal) (argX m c) (argE m c) (argW m c) (argB m c) := by
  funext j
  obtain ⟨d, q, rfl⟩ : ∃ (d : Fin 24) (q : Fin 256), j = ix2 d q := ⟨j 0, j 1, eq_ix2 j⟩
  rw [ecK_apply]
  exact (Cert.ReferenceIdeal.RefValue.v9_apply _ _ _ _ d q).symm

open Cert.ReferenceIdeal.Read in
theorem ccK_eq (c : Dev nD) :
    Run.ccK m c = val_main_v11 (F := Ideal) (argX m c) (argW m c) (argB m c) := by
  funext j
  obtain ⟨q, rfl⟩ : ∃ (q : Fin 256), j = ix1 q := ⟨j 0, eq_ix1 j⟩
  rw [ccK_apply]
  exact (Cert.ReferenceIdeal.RefValue.v11_apply _ _ _ q).symm

open Cert.ReferenceIdeal.Read in
theorem eeK_eq (c : Dev nD) :
    Run.eeK m c = val_main_v16 (F := Ideal) (argE m c) := by
  funext j
  rw [eeK_apply]
  exact (Cert.ReferenceIdeal.RefValue.v16_apply _ j).symm

open Cert.ReferenceIdeal.Read in
/-- The kernel's result is the reference's term of the same arguments. -/
theorem result_eq (c : Dev nD) :
    Run.result m c = val_main_v25 (F := Ideal) (argX m c) (argE m c) (argW m c) (argB m c) (m ((c : Thread nD τ).loc main_arg4)) := by
  unfold Run.result
  rw [ecK_eq, ccK_eq, eeK_eq]
  rfl

end Cert.KernelIdeal.Bridge
end
-- ==== Proof.lean ====
/-
  Candidate scores: a tiled kernel against the plain computation, equal over the extended reals.

  Both programs take inputs x (100000 x 168), errors e (100000 x 24), candidate weights w (168 x 256),
  candidate biases b (1 x 256) and a vector r of 4 numbers, and return the 256 x 4 array
      score q i = (sum over d of (EC d q)^2) / CC q - (1 - r i) * EE,
  where sig n q = logistic (x n . w q + b q) is candidate q's activation at row n,
  EC d q = sum over n of e n d * sig n q, CC q = sum over n of (sig n q)^2 and EE = sum over n, d of (e n d)^2.

  The reference forms the three sums over all 100000 rows at once, with the logistic function spelled
  1 / (1 + exp (-z)). The kernel walks the rows in 50 tiles of 2000, 25 tiles per core: each step adds its
  tile's share to three running totals, a core's first step starts them from zero, its last step writes them
  out, and the host adds the two cores' outputs before the closing arithmetic, which is the same in both
  programs. Over the extended reals rounding a factor to a shorter format is the identity, the two spellings
  of the logistic function are one function, and addition is commutative and associative with neutral zero,
  so regrouping the 100000 rows as 2 x 25 x 2000 changes no sum; no finiteness of the inputs is used.
  The three frames are the generated ones (the reference's is its generated run with the result dropped), and
  the idealization rewrote nothing.
-/
import proofs.«136215_j64656437674378_1_alg».proof.Defs
import proofs.«136215_j64656437674378_1_alg».proof.Proof.Gen.Kernel
import proofs.«136215_j64656437674378_1_alg».proof.Proof.Gen.Kernel.Skeleton
import proofs.«136215_j64656437674378_1_alg».proof.Proof.Gen.Kernel.Launch
import proofs.«136215_j64656437674378_1_alg».proof.Proof.Gen.Kernel.Points
import proofs.«136215_j64656437674378_1_alg».proof.Proof.Gen.Kernel.Frame
import proofs.«136215_j64656437674378_1_alg».proof.Proof.Gen.KernelIdeal
import proofs.«136215_j64656437674378_1_alg».proof.Proof.Gen.KernelIdeal.Skeleton
import proofs.«136215_j64656437674378_1_alg».proof.Proof.Gen.KernelIdeal.Launch
import proofs.«136215_j64656437674378_1_alg».proof.Proof.Gen.KernelIdeal.Points
import proofs.«136215_j64656437674378_1_alg».proof.Proof.Gen.KernelIdeal.Frame
import proofs.«136215_j64656437674378_1_alg».proof.Proof.Gen.ReferenceIdeal
import proofs.«136215_j64656437674378_1_alg».proof.Proof.Gen.Pre_finite_inputs
import proofs.«136215_j64656437674378_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the five arguments the two programs end with the same scores. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
